-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x1024x16 : Shape := ⟨4, ![8, 32, 1024, 16]⟩
abbrev S8x16x1024x1024 : Shape := ⟨4, ![8, 16, 1024, 1024]⟩
abbrev S32x20 : Shape := ⟨2, ![32, 20]⟩
abbrev S20 : Shape := ⟨1, ![20]⟩
abbrev S80x32 : Shape := ⟨2, ![80, 32]⟩
abbrev S32 : Shape := ⟨1, ![32]⟩
abbrev S_ : Shape := ⟨0, ![]⟩
abbrev S1024x1024 : Shape := ⟨2, ![1024, 1024]⟩
abbrev S1x1x1024x1024 : Shape := ⟨4, ![1, 1, 1024, 1024]⟩
abbrev S8x16x1024 : Shape := ⟨3, ![8, 16, 1024]⟩

class Facts : Prop where
  bcast_S_S8x32x1024x16 : S_.BroadcastsInDim S8x32x1024x16 (![] : Fin 0 → Fin S8x32x1024x16.rank)
  reducesTo_S8x32x1024x16_S_d0_1_2_3 : S8x32x1024x16.ReducesTo [0, 1, 2, 3] S_
  h_S_ : 0 < S_.numel
  bcast_S_S8x16x1024x1024 : S_.BroadcastsInDim S8x16x1024x1024 (![] : Fin 0 → Fin S8x16x1024x1024.rank)
  reducesTo_S8x16x1024x1024_S_d0_1_2_3 : S8x16x1024x1024.ReducesTo [0, 1, 2, 3] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_
  bcast_S_S80x32 : S_.BroadcastsInDim S80x32 (![] : Fin 0 → Fin S80x32.rank)
  reducesTo_S80x32_S_d0_1 : S80x32.ReducesTo [0, 1] S_
  bcast_S_S32 : S_.BroadcastsInDim S32 (![] : Fin 0 → Fin S32.rank)
  reducesTo_S32_S_d0 : S32.ReducesTo [0] S_
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S8x16x1024x1024_0_1_2_3 : S1x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  bcast_S_S8x16x1024 : S_.BroadcastsInDim S8x16x1024 (![] : Fin 0 → Fin S8x16x1024.rank)
  reducesTo_S8x16x1024_S_d0_1_2 : S8x16x1024.ReducesTo [0, 1, 2] S_

variable [Facts]

def fn_part2 {F : FTy → Type} [FloatOps F] (main_arg1 : FVec F S8x16x1024x1024 .f32) (main_v28 : IVec S_ 1) (main_v34 : FVec F S1024x1024 .f32) : IVec S_ 1 :=
  let main_v35 : FVec F S1x1x1024x1024 .f32 := broadcastInDim S1x1x1024x1024 ![2, 3] bcast_S1024x1024_S1x1x1024x1024_2_3 main_v34
  let main_v36 : FVec F S8x16x1024x1024 .f32 := broadcastInDim S8x16x1024x1024 ![0, 1, 2, 3] bcast_S1x1x1024x1024_S8x16x1024x1024_0_1_2_3 main_v35
  let main_v37 : FVec F S8x16x1024x1024 .f32 := addf main_arg1 main_v36
  let main_cst_11 : FVec F S_ .f32 := constant S_ .f32 0x00000000#32
  let main_v38 : FVec F S8x16x1024 .f32 := (fun x v => Host.reduceAdd x v reducesTo_S8x16x1024x1024_S8x16x1024_d3 h_S_) main_v37 main_cst_11
  let main_cst_12 : FVec F S_ .f32 := constant S_ .f32 0x00000000#32
  let main_v39 : FVec F S8x16x1024 .f32 := broadcastInDim S8x16x1024 ![] bcast_S_S8x16x1024 main_cst_12
  let main_v40 : IVec S8x16x1024 1 := cmpf .une main_v38 main_v39
  let main_c_13 : IVec S_ 1 := constantI S_ 1 1#1
  let main_v41 : IVec S_ 1 := (fun x v => Host.reduce IntOp.andi x v reducesTo_S8x16x1024_S_d0_1_2 h_S_) main_v40 main_c_13
  let main_v42 : IVec S_ 1 := andi main_v28 main_v41
  main_v42

def fn_part1 {F : FTy → Type} [FloatOps F] (main_arg1 : FVec F S8x16x1024x1024 .f32) (main_arg4 : FVec F S80x32 .f32) (main_arg5 : FVec F S32 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S80x32 .f32 := Host.absf main_arg4
  let main_cst_6 : FVec F S_ .f32 := constant S_ .f32 0x7F800000#32
  let main_v20 : FVec F S80x32 .f32 := broadcastInDim S80x32 ![] bcast_S_S80x32 main_cst_6
  let main_v21 : IVec S80x32 1 := cmpf .olt main_v19 main_v20
  let main_c_7 : IVec S_ 1 := constantI S_ 1 1#1
  let main_v22 : IVec S_ 1 := (fun x v => Host.reduce IntOp.andi x v reducesTo_S80x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : IVec S1024x1024 32 := iotaInDim S1024x1024 32 0
  let main_v30 : IVec S1024x1024 32 := iotaInDim S1024x1024 32 1
  let main_c_10 : IVec S_ 32 := constantI S_ 32 0#32
  let main_v31 : IVec S1024x1024 32 := broadcastInDim S1024x1024 ![] bcast_S_S1024x1024 main_c_10
  let main_v32 : IVec S1024x1024 32 := addi main_v29 main_v31
  let main_v33 : IVec S1024x1024 1 := cmpi .eq main_v32 main_v30
  let main_v34 : FVec F S1024x1024 .f32 := uitofp .f32 main_v33
  fn_part2 (F := F) main_arg1 main_v28 main_v34

def fn {F : FTy → Type} [FloatOps F] (main_arg0 : FVec F S8x32x1024x16 .f32) (main_arg1 : FVec F S8x16x1024x1024 .f32) (main_arg2 : FVec F S32x20 .f32) (main_arg3 : FVec F S20 .f32) (main_arg4 : FVec F S80x32 .f32) (main_arg5 : FVec F S32 .f32) : IVec S_ 1 :=
  let main_v0 : FVec F S8x32x1024x16 .f32 := Host.absf main_arg0
  let main_cst : FVec F S_ .f32 := constant S_ .f32 0x7F800000#32
  let main_v1 : FVec F S8x32x1024x16 .f32 := broadcastInDim S8x32x1024x16 ![] bcast_S_S8x32x1024x16 main_cst
  let main_v2 : IVec S8x32x1024x16 1 := cmpf .olt main_v0 main_v1
  let main_c : IVec S_ 1 := constantI S_ 1 1#1
  let main_v3 : IVec S_ 1 := (fun x v => Host.reduce IntOp.andi x v reducesTo_S8x32x1024x16_S_d0_1_2_3 h_S_) main_v2 main_c
  let main_v4 : FVec F S8x16x1024x1024 .f32 := Host.absf main_arg1
  let main_cst_0 : FVec F S_ .f32 := constant S_ .f32 0x7F800000#32
  let main_v5 : FVec F S8x16x1024x1024 .f32 := broadcastInDim S8x16x1024x1024 ![] bcast_S_S8x16x1024x1024 main_cst_0
  let main_v6 : IVec S8x16x1024x1024 1 := cmpf .olt main_v4 main_v5
  let main_c_1 : IVec S_ 1 := constantI S_ 1 1#1
  let main_v7 : IVec S_ 1 := (fun x v => Host.reduce IntOp.andi x v reducesTo_S8x16x1024x1024_S_d0_1_2_3 h_S_) main_v6 main_c_1
  let main_v8 : IVec S_ 1 := andi main_v3 main_v7
  let main_v9 : FVec F S32x20 .f32 := Host.absf main_arg2
  let main_cst_2 : FVec F S_ .f32 := constant S_ .f32 0x7F800000#32
  let main_v10 : FVec F S32x20 .f32 := broadcastInDim S32x20 ![] bcast_S_S32x20 main_cst_2
  let main_v11 : IVec S32x20 1 := cmpf .olt main_v9 main_v10
  let main_c_3 : IVec S_ 1 := constantI S_ 1 1#1
  let main_v12 : IVec S_ 1 := (fun x v => Host.reduce IntOp.andi x v reducesTo_S32x20_S_d0_1 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg1 main_arg4 main_arg5 main_v13 main_v16
-- ==== Kernel.lean ====
abbrev S8x32x1024x16 : Shape := ⟨4, ![8, 32, 1024, 16]⟩
abbrev S8x16x1024x1024 : Shape := ⟨4, ![8, 16, 1024, 1024]⟩
abbrev S32x20 : Shape := ⟨2, ![32, 20]⟩
abbrev S20 : Shape := ⟨1, ![20]⟩
abbrev S80x32 : Shape := ⟨2, ![80, 32]⟩
abbrev S32 : Shape := ⟨1, ![32]⟩
abbrev S8x16x1024x32 : Shape := ⟨4, ![8, 16, 1024, 32]⟩
abbrev S1x20 : Shape := ⟨2, ![1, 20]⟩
abbrev S1x32 : Shape := ⟨2, ![1, 32]⟩
abbrev S1x2x1024x1024 : Shape := ⟨4, ![1, 2, 1024, 1024]⟩
abbrev S1x2x1024x32 : Shape := ⟨4, ![1, 2, 1024, 32]⟩
abbrev S1x1x1024x1024 : Shape := ⟨4, ![1, 1, 1024, 1024]⟩
abbrev S1024x1024 : Shape := ⟨2, ![1024, 1024]⟩
abbrev S1024 : Shape := ⟨1, ![1024]⟩
abbrev S1024x1 : Shape := ⟨2, ![1024, 1]⟩
abbrev S1x1x1024x32 : Shape := ⟨4, ![1, 1, 1024, 32]⟩
abbrev S1024x32 : Shape := ⟨2, ![1024, 32]⟩
abbrev S1024x20 : Shape := ⟨2, ![1024, 20]⟩
abbrev S20x32 : Shape := ⟨2, ![20, 32]⟩

abbrev nBuf : Space → Nat
  | .hbm => 10
  | .vmem => 10
  | .smem => 0
  | _ => 0

abbrev bufTy : (tb : Table) → Fin (tcTables nBuf tb) → BufTy
  | .hbm, ⟨0, _⟩ => ⟨S8x32x1024x16, .f32⟩
  | .hbm, ⟨1, _⟩ => ⟨S8x16x1024x1024, .f32⟩
  | .hbm, ⟨2, _⟩ => ⟨S32x20, .f32⟩
  | .hbm, ⟨3, _⟩ => ⟨S20, .f32⟩
  | .hbm, ⟨4, _⟩ => ⟨S80x32, .f32⟩
  | .hbm, ⟨5, _⟩ => ⟨S32, .f32⟩
  | .hbm, ⟨6, _⟩ => ⟨S8x16x1024x32, .f32⟩
  | .hbm, ⟨7, _⟩ => ⟨S1x20, .f32⟩
  | .hbm, ⟨8, _⟩ => ⟨S1x32, .f32⟩
  | .hbm, ⟨9, _⟩ => ⟨S8x16x1024x32, .f32⟩
  | .local _ .vmem, ⟨0, _⟩ => ⟨S1x2x1024x1024, .f32⟩
  | .local _ .vmem, ⟨1, _⟩ => ⟨S1x2x1024x1024, .f32⟩
  | .local _ .vmem, ⟨2, _⟩ => ⟨S1x2x1024x32, .f32⟩
  | .local _ .vmem, ⟨3, _⟩ => ⟨S1x2x1024x32, .f32⟩
  | .local _ .vmem, ⟨4, _⟩ => ⟨S32x20, .f32⟩
  | .local _ .vmem, ⟨5, _⟩ => ⟨S1x20, .f32⟩
  | .local _ .vmem, ⟨6, _⟩ => ⟨S80x32, .f32⟩
  | .local _ .vmem, ⟨7, _⟩ => ⟨S1x32, .f32⟩
  | .local _ .vmem, ⟨8, _⟩ => ⟨S1x2x1024x32, .f32⟩
  | .local _ .vmem, ⟨9, _⟩ => ⟨S1x2x1024x32, .f32⟩
  | _, _ => ⟨S8x32x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S80x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S8x32x1024x16_S8x16x1024x32_0_3_2_1 : S8x32x1024x16.Transposes [0, 3, 2, 1] S8x16x1024x32
  shapeCasts_S20_S1x20 : S20.ShapeCasts S1x20
  shapeCasts_S32_S1x32 : S32.ShapeCasts S1x32
  inb_S32x20_S32x20_0_0 : ∀ a, (![0, 0] : Fin 2 → Nat) a + S32x20.size a ≤ S32x20.size a
  h_S32x20 : 0 < S32x20.numel
  bitsLt_bf16_f32 : FTy.bits .bf16 < FTy.bits .f32
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  reduces_S1024x1024_S1024 : S1024x1024.Reduces [1] S1024
  shapeCasts_S1024_S1024x1 : S1024.ShapeCasts S1024x1
  inb_S1x2x1024x32_S1x1x1024x32_0_0_0_0 : ∀ a, (![0, 0, 0, 0] : Fin 4 → Nat) a + S1x1x1024x32.size a ≤ S1x2x1024x32.size a
  h_S1x1x1024x32 : 0 < S1x1x1024x32.numel
  shapeCasts_S1x1x1024x32_S1024x32 : S1x1x1024x32.ShapeCasts S1024x32
  broadcasts_S1x20_S1024x20 : S1x20.Broadcasts S1024x20
  inb_S80x32_S20x32_0_0 : ∀ a, (![0, 0] : Fin 2 → Nat) a + S20x32.size a ≤ S80x32.size a
  h_S20x32 : 0 < S20x32.numel
  broadcasts_S1024x1_S1024x20 : S1024x1.Broadcasts S1024x20
  inb_S80x32_S20x32_20_0 : ∀ a, (![20, 0] : Fin 2 → Nat) a + S20x32.size a ≤ S80x32.size a
  inb_S80x32_S20x32_40_0 : ∀ a, (![40, 0] : Fin 2 → Nat) a + S20x32.size a ≤ S80x32.size a
  inb_S80x32_S20x32_60_0 : ∀ a, (![60, 0] : Fin 2 → Nat) a + S20x32.size a ≤ S80x32.size a
  broadcasts_S1x32_S1024x32 : S1x32.Broadcasts S1024x32
  shapeCasts_S1024x32_S1x1x1024x32 : S1024x32.ShapeCasts S1x1x1024x32
  inb_S1x2x1024x1024_S1x1x1024x1024_0_1_0_0 : ∀ a, (![0, 1, 0, 0] : Fin 4 → Nat) a + S1x1x1024x1024.size a ≤ S1x2x1024x1024.size a
  inb_S1x2x1024x32_S1x1x1024x32_0_1_0_0 : ∀ a, (![0, 1, 0, 0] : Fin 4 → Nat) a + S1x1x1024x32.size a ≤ S1x2x1024x32.size a
  dot_S1024x32_S32x20_S1024x20_1_0_0_1_n_n_wf : DotDims.WF S1024x32 S32x20 S1024x20 [1] [0] [0] [1] [] []
  dot_S1024x20_S20x32_S1024x32_1_0_0_1_n_n_wf : DotDims.WF S1024x20 S20x32 S1024x32 [1] [0] [0] [1] [] []
  dot_S1024x1024_S1024x20_S1024x20_1_0_0_1_n_n_wf : DotDims.WF S1024x1024 S1024x20 S1024x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x1024.size a ≤ S8x16x1024x1024.size a
  hwx0_0 : ∀ i : grid0.Coords, EltTy.bits .f32 = 32 ∨ (Rect.block (s := S8x16x1024x1024) S1x2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024x32.size a ≤ S8x16x1024x32.size a
  hwx0_1 : ∀ i : grid0.Coords, EltTy.bits .f32 = 32 ∨ (Rect.block (s := S8x16x1024x32) S1x2x1024x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x20.size a ≤ S32x20.size a
  hwx0_2 : ∀ i : grid0.Coords, EltTy.bits .f32 = 32 ∨ (Rect.block (s := S32x20) S32x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x32.size a ≤ S80x32.size a
  hwx0_4 : ∀ i : grid0.Coords, EltTy.bits .f32 = 32 ∨ (Rect.block (s := S80x32) S80x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x1024x32.size a ≤ S8x16x1024x32.size a
  hwx0_6 : ∀ i : grid0.Coords, EltTy.bits .f32 = 32 ∨ (Rect.block (s := S8x16x1024x32) S1x2x1024x32.size (cc0_transform_6 i) (hinb0_6 i)).WholeWords (EltTy.packing .f32)

variable [Facts₀]

def dot_S1024x32_S32x20_S1024x20_1_0_0_1_n_n : DotDims S1024x32 S32x20 S1024x20 where
  lhsContracting := [1]
  rhsContracting := [0]
  lhsNonContracting := [0]
  rhsNonContracting := [1]
  lhsBatch := []
  rhsBatch := []
  wf := dot_S1024x32_S32x20_S1024x20_1_0_0_1_n_n_wf
def dot_S1024x20_S20x32_S1024x32_1_0_0_1_n_n : DotDims S1024x20 S20x32 S1024x32 where
  lhsContracting := [1]
  rhsContracting := [0]
  lhsNonContracting := [0]
  rhsNonContracting := [1]
  lhsBatch := []
  rhsBatch := []
  wf := dot_S1024x20_S20x32_S1024x32_1_0_0_1_n_n_wf
def dot_S1024x1024_S1024x20_S1024x20_1_0_0_1_n_n : DotDims S1024x1024 S1024x20 S1024x20 where
  lhsContracting := [1]
  rhsContracting := [0]
  lhsNonContracting := [0]
  rhsNonContracting := [1]
  lhsBatch := []
  rhsBatch := []
  wf := dot_S1024x1024_S1024x20_S1024x20_1_0_0_1_n_n_wf

abbrev win0_0 : Pipeline.Window sig grid0 :=
  Pipeline.Window.ofSpec (Memref.whole main_arg1) S1x2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S80x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x2x1024x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x32x1024x16 : Shape := ⟨4, ![8, 32, 1024, 16]⟩
abbrev S8x16x1024x1024 : Shape := ⟨4, ![8, 16, 1024, 1024]⟩
abbrev S32x20 : Shape := ⟨2, ![32, 20]⟩
abbrev S20 : Shape := ⟨1, ![20]⟩
abbrev S80x32 : Shape := ⟨2, ![80, 32]⟩
abbrev S32 : Shape := ⟨1, ![32]⟩
abbrev S1024x1024 : Shape := ⟨2, ![1024, 1024]⟩
abbrev S_ : Shape := ⟨0, ![]⟩
abbrev S1x1x1024x1024 : Shape := ⟨4, ![1, 1, 1024, 1024]⟩
abbrev S8x16x1024 : Shape := ⟨3, ![8, 16, 1024]⟩
abbrev S8x16x1024x1 : Shape := ⟨4, ![8, 16, 1024, 1]⟩
abbrev S8x16x1024x32 : Shape := ⟨4, ![8, 16, 1024, 32]⟩
abbrev S8x16x1024x20 : Shape := ⟨4, ![8, 16, 1024, 20]⟩
abbrev S1x1x1x20 : Shape := ⟨4, ![1, 1, 1, 20]⟩
abbrev S8x16x1024x80 : Shape := ⟨4, ![8, 16, 1024, 80]⟩
abbrev S1x1x1x32 : Shape := ⟨4, ![1, 1, 1, 32]⟩

abbrev nBuf : Space → Nat
  | .hbm => 55
  | .vmem => 0
  | .smem => 0
  | _ => 0

abbrev bufTy : (tb : Table) → Fin (tcTables nBuf tb) → BufTy
  | .hbm, ⟨0, _⟩ => ⟨S8x32x1024x16, .f32⟩
  | .hbm, ⟨1, _⟩ => ⟨S8x16x1024x1024, .f32⟩
  | .hbm, ⟨2, _⟩ => ⟨S32x20, .f32⟩
  | .hbm, ⟨3, _⟩ => ⟨S20, .f32⟩
  | .hbm, ⟨4, _⟩ => ⟨S80x32, .f32⟩
  | .hbm, ⟨5, _⟩ => ⟨S32, .f32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .f32⟩
  | .hbm, ⟨13, _⟩ => ⟨S1x1x1024x1024, .f32⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S8x16x1024x1, .f32⟩
  | .hbm, ⟨19, _⟩ => ⟨S8x16x1024x1024, .f32⟩
  | .hbm, ⟨20, _⟩ => ⟨S8x16x1024x1024, .f32⟩
  | .hbm, ⟨21, _⟩ => ⟨S8x16x1024x32, .f32⟩
  | .hbm, ⟨22, _⟩ => ⟨S8x16x1024x20, .f32⟩
  | .hbm, ⟨23, _⟩ => ⟨S1x1x1x20, .f32⟩
  | .hbm, ⟨24, _⟩ => ⟨S8x16x1024x20, .f32⟩
  | .hbm, ⟨25, _⟩ => ⟨S8x16x1024x20, .f32⟩
  | .hbm, ⟨26, _⟩ => ⟨S_, .f32⟩
  | .hbm, ⟨27, _⟩ => ⟨S8x16x1024x20, .f32⟩
  | .hbm, ⟨28, _⟩ => ⟨S8x16x1024x20, .f32⟩
  | .hbm, ⟨29, _⟩ => ⟨S8x16x1024x20, .f32⟩
  | .hbm, ⟨30, _⟩ => ⟨S_, .f32⟩
  | .hbm, ⟨31, _⟩ => ⟨S8x16x1024x20, .f32⟩
  | .hbm, ⟨32, _⟩ => ⟨S8x16x1024x20, .f32⟩
  | .hbm, ⟨33, _⟩ => ⟨S8x16x1024x20, .f32⟩
  | .hbm, ⟨34, _⟩ => ⟨S_, .f32⟩
  | .hbm, ⟨35, _⟩ => ⟨S8x16x1024x20, .f32⟩
  | .hbm, ⟨36, _⟩ => ⟨S8x16x1024x20, .f32⟩
  | .hbm, ⟨37, _⟩ => ⟨S8x16x1024x20, .f32⟩
  | .hbm, ⟨38, _⟩ => ⟨S_, .f32⟩
  | .hbm, ⟨39, _⟩ => ⟨S8x16x1024x20, .f32⟩
  | .hbm, ⟨40, _⟩ => ⟨S8x16x1024x20, .f32⟩
  | .hbm, ⟨41, _⟩ => ⟨S8x16x1024x20, .f32⟩
  | .hbm, ⟨42, _⟩ => ⟨S_, .f32⟩
  | .hbm, ⟨43, _⟩ => ⟨S8x16x1024x20, .f32⟩
  | .hbm, ⟨44, _⟩ => ⟨S8x16x1024x20, .f32⟩
  | .hbm, ⟨45, _⟩ => ⟨S8x16x1024x20, .f32⟩
  | .hbm, ⟨46, _⟩ => ⟨S_, .f32⟩
  | .hbm, ⟨47, _⟩ => ⟨S8x16x1024x20, .f32⟩
  | .hbm, ⟨48, _⟩ => ⟨S8x16x1024x20, .f32⟩
  | .hbm, ⟨49, _⟩ => ⟨S8x16x1024x20, .f32⟩
  | .hbm, ⟨50, _⟩ => ⟨S8x16x1024x80, .f32⟩
  | .hbm, ⟨51, _⟩ => ⟨S8x16x1024x32, .f32⟩
  | .hbm, ⟨52, _⟩ => ⟨S1x1x1x32, .f32⟩
  | .hbm, ⟨53, _⟩ => ⟨S8x16x1024x32, .f32⟩
  | .hbm, ⟨54, _⟩ => ⟨S8x16x1024x32, .f32⟩
  | _, _ => ⟨S8x32x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1x1024x1024_2_3 : S1024x1024.BroadcastsInDim S1x1x1024x1024 (![2, 3] : Fin 2 → Fin S1x1x1024x1024.rank)
  bcast_S1x1x1024x1024_S8x16x1024x1024_0_1_2_3 : S1x1x1024x1024.BroadcastsInDim S8x16x1024x1024 (![0, 1, 2, 3] : Fin 4 → Fin S8x16x1024x1024.rank)
  reducesTo_S8x16x1024x1024_S8x16x1024_d3 : S8x16x1024x1024.ReducesTo [3] S8x16x1024
  h_S_ : 0 < S_.numel
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  transposes_S8x32x1024x16_S8x16x1024x32_0_3_2_1 : S8x32x1024x16.Transposes [0, 3, 2, 1] S8x16x1024x32
  bcast_S20_S1x1x1x20_3 : S20.BroadcastsInDim S1x1x1x20 (![3] : Fin 1 → Fin S1x1x1x20.rank)
  bcast_S1x1x1x20_S8x16x1024x20_0_1_2_3 : S1x1x1x20.BroadcastsInDim S8x16x1024x20 (![0, 1, 2, 3] : Fin 4 → Fin S8x16x1024x20.rank)
  bcast_S_S8x16x1024x20 : S_.BroadcastsInDim S8x16x1024x20 (![] : Fin 0 → Fin S8x16x1024x20.rank)
  concatenates_S8x16x1024x20_S8x16x1024x20_S8x16x1024x20_S8x16x1024x20_S8x16x1024x80_d3 : Shape.Concatenates [S8x16x1024x20, S8x16x1024x20, S8x16x1024x20, S8x16x1024x20] S8x16x1024x80 3
  bcast_S32_S1x1x1x32_3 : S32.BroadcastsInDim S1x1x1x32 (![3] : Fin 1 → Fin S1x1x1x32.rank)
  bcast_S1x1x1x32_S8x16x1024x32_0_1_2_3 : S1x1x1x32.BroadcastsInDim S8x16x1024x32 (![0, 1, 2, 3] : Fin 4 → Fin S8x16x1024x32.rank)
  dot_S8x16x1024x32_S32x20_S8x16x1024x20_3_0_012_1_n_n_wf : DotDims.WF S8x16x1024x32 S32x20 S8x16x1024x20 [3] [0] [0, 1, 2] [1] [] []
  dot_S8x16x1024x1024_S8x16x1024x20_S8x16x1024x20_3_2_2_3_01_01_wf : DotDims.WF S8x16x1024x1024 S8x16x1024x20 S8x16x1024x20 [3] [2] [2] [3] [0, 1] [0, 1]
  dot_S8x16x1024x80_S80x32_S8x16x1024x32_3_0_012_1_n_n_wf : DotDims.WF S8x16x1024x80 S80x32 S8x16x1024x32 [3] [0] [0, 1, 2] [1] [] []

variable [Facts₀]

def dot_S8x16x1024x32_S32x20_S8x16x1024x20_3_0_012_1_n_n : DotDims S8x16x1024x32 S32x20 S8x16x1024x20 where
  lhsContracting := [3]
  rhsContracting := [0]
  lhsNonContracting := [0, 1, 2]
  rhsNonContracting := [1]
  lhsBatch := []
  rhsBatch := []
  wf := dot_S8x16x1024x32_S32x20_S8x16x1024x20_3_0_012_1_n_n_wf
def dot_S8x16x1024x1024_S8x16x1024x20_S8x16x1024x20_3_2_2_3_01_01 : DotDims S8x16x1024x1024 S8x16x1024x20 S8x16x1024x20 where
  lhsContracting := [3]
  rhsContracting := [2]
  lhsNonContracting := [2]
  rhsNonContracting := [3]
  lhsBatch := [0, 1]
  rhsBatch := [0, 1]
  wf := dot_S8x16x1024x1024_S8x16x1024x20_S8x16x1024x20_3_2_2_3_01_01_wf
def dot_S8x16x1024x80_S80x32_S8x16x1024x32_3_0_012_1_n_n : DotDims S8x16x1024x80 S80x32 S8x16x1024x32 where
  lhsContracting := [3]
  rhsContracting := [0]
  lhsNonContracting := [0, 1, 2]
  rhsNonContracting := [1]
  lhsBatch := []
  rhsBatch := []
  wf := dot_S8x16x1024x80_S80x32_S8x16x1024x32_3_0_012_1_n_n_wf

class Facts : Prop extends Facts₀ where

variable [Facts]
-- ==== Proof.LibExtReal.lean ====
/-
  Extended reals that are real numbers.

  A float at the ideal instance is an extended real. When every input of a network is a real number, so is every value
  built from the inputs by sums, products and maxima; and on real numbers the two ways a log-softmax is written,
  `a - (L + m)` and `(a - m) - L`, agree whatever `L` is.
-/
import Mathlib.Data.EReal.Operations
import Mathlib.Algebra.BigOperators.Group.Finset.Basic
import Mathlib.Data.Finset.Lattice.Fold

namespace Cert.LibExtReal

/-- `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem isReal_max {x y : EReal} (hx : IsReal x) (hy : IsReal y) : IsReal (max x y) := by
  rcases max_choice x y with h | h <;> rw [h] <;> assumption

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The maximum of finitely many real numbers, at least one, folded from the bottom element, is one of them: a real number. -/
theorem isReal_fold_max {ι : Type*} (s : Finset ι) (hs : s.Nonempty) (f : ι → EReal) (h : ∀ i ∈ s, IsReal (f i)) :
    IsReal (s.fold max ⊥ f) := by
  obtain ⟨i, hi, e⟩ := Finset.exists_mem_eq_sup s hs f
  have hfold : s.fold max ⊥ f = s.sup f := rfl
  rw [hfold, e]
  exact h i hi

/-- For real `a` and `m`, subtracting `L + m` from `a` is subtracting `m` and then `L`, for every extended real `L`. -/
theorem sub_add_eq_sub_sub_of_real (a m : ℝ) (L : EReal) : (a : EReal) - (L + (m : EReal)) = ((a : EReal) - (m : EReal)) - L := by
  induction L using EReal.rec with
  | bot => rw [EReal.bot_add, EReal.coe_sub_bot, ← EReal.coe_sub, EReal.coe_sub_bot]
  | coe l => rw [← EReal.coe_add, ← EReal.coe_sub, ← EReal.coe_sub, ← EReal.coe_sub]; congr 1; ring
  | top => rw [EReal.top_add_coe, EReal.sub_top, EReal.sub_top]

end Cert.LibExtReal
-- ==== Proof.Spec.lean ====
/-
  One channel of a mix-hop graph propagation layer, as mathematics on plain index types.

  For one batch element and one channel the layer takes an N × N adjacency slice `a`, an N × C input slice `xt`, a
  C × H start weight with its bias, an 80 × O end weight with its bias (H = 20, four hops of 20 columns each), and two
  mixing coefficients `p`, `q`.  With `h₀ = xt · ws + bs`, each hop is

      h ↦ p · h₀ + q · (Â · h),        Â = (a + I) / rowsum (a + I),

  and the result is `[h₀ | h₁ | h₂ | h₃] · W + be`.

  Two spellings of this are given.  The "row-normalised" one (`stepR`, `outR`, `chanR`) divides every entry of
  `a + I` by its row sum and multiplies the concatenated hops by the whole end weight.  The "factored" one
  (`stepK`, `outK`, `chanK`) never forms `a + I`: the identity adds `h` itself to `a · h` and `1` to the row sum of `a`,
  the division is done once per row after the product, and the end weight is applied hop by hop to its four
  20-row segments.  The two agree when all entries are real numbers and no row sum of `a + I` vanishes
  (module `Law`).
-/
import Idealize.ShloMosaic.PureOps.Ideal
import Idealize.ShloMosaic.Lib.ValueIdx
import proofs.«172304_j27212912787591_2_alg».proof.Proof.LibExtReal

noncomputable section

open scoped BigOperators

namespace Cert.Mix

open Idealize.ShloMosaic Idealize.ShloMosaic.ValueIdx

section Plain

variable {ι μ κ ο : Type} [Fintype ι] [DecidableEq ι] [Fintype μ] [Fintype κ]

/-- The identity matrix's entry. -/
def eye (v w : ι) : EReal := if v = w then 1 else 0

/-- Row sum of `a + I`, factored: the row sum of `a`, plus one. -/
def rsK (a : ι → ι → EReal) (v : ι) : EReal := (∑ w, a v w) + 1

/-- Row sum of `a + I`, entry by entry. -/
def rsR (a : ι → ι → EReal) (v : ι) : EReal := ∑ w, (a v w + eye v w)

/-- The start layer: `xt · ws + bs`. -/
def h0f (xt : ι → μ → EReal) (ws : μ → κ → EReal) (bs : κ → EReal) : ι → κ → EReal :=
  fun n l => (∑ i, xt n i * ws i l) + bs l

/-- One hop, factored: `p · h₀ + q · ((a · h + h) / (rowsum a + 1))`. -/
def stepK (p q : EReal) (a : ι → ι → EReal) (h0 h : ι → κ → EReal) : ι → κ → EReal :=
  fun v l => p * h0 v l + q * Ideal.div ((∑ w, a v w * h w l) + h v l) (rsK a v)

/-- One hop, row-normalised: `p · h₀ + q · (((a + I) / rowsum (a + I)) · h)`. -/
def stepR (p q : EReal) (a : ι → ι → EReal) (h0 h : ι → κ → EReal) : ι → κ → EReal :=
  fun v l => p * h0 v l + q * ∑ w, Ideal.div (a v w + eye v w) (rsR a v) * h w l

/-- The hops, factored: `h₀`, then `stepK` again and again. -/
def hK (p q : EReal) (a : ι → ι → EReal) (h0 : ι → κ → EReal) : ℕ → ι → κ → EReal
  | 0 => h0
  | d + 1 => stepK p q a h0 (hK p q a h0 d)

/-- The hops, row-normalised. -/
def hR (p q : EReal) (a : ι → ι → EReal) (h0 : ι → κ → EReal) : ℕ → ι → κ → EReal
  | 0 => h0
  | d + 1 => stepR p q a h0 (hR p q a h0 d)

/-- The end layer, hop by hop: `(((H₀ · W₀ + H₁ · W₁) + H₂ · W₂) + H₃ · W₃) + be`. -/
def outK (H : Fin 4 → ι → Fin 20 → EReal) (W : Fin 4 → Fin 20 → ο → EReal) (be : ο → EReal) : ι → ο → EReal :=
  fun n o => ((((∑ l, H 0 n l * W 0 l o) + ∑ l, H 1 n l * W 1 l o) + ∑ l, H 2 n l * W 2 l o)
    + ∑ l, H 3 n l * W 3 l o) + be o

/-- The end layer on the concatenated hops: column `k` of `[H₀ | H₁ | H₂ | H₃]` is column `k % 20` of hop `k / 20`. -/
def outR (H : Fin 4 → ι → Fin 20 → EReal) (W : Fin 80 → ο → EReal) (be : ο → EReal) : ι → ο → EReal :=
  fun n o => (∑ k : Fin 80, H ⟨k.val / 20, by have := k.isLt; omega⟩ n ⟨k.val % 20, by omega⟩ * W k o) + be o

/-- Segment `d` of the end weight: its rows `20 d … 20 d + 19`. -/
def segW (W : Fin 80 → ο → EReal) (d : Fin 4) (l : Fin 20) : ο → EReal :=
  W ⟨20 * d.val + l.val, by have := d.isLt; have := l.isLt; omega⟩

/-- One of four things, by number. -/
def sel4 {β : Type} (f0 f1 f2 f3 : β) : Fin 4 → β
  | 0 => f0
  | 1 => f1
  | 2 => f2
  | 3 => f3

/-- One channel, factored. -/
def chanK (p q : EReal) (a : ι → ι → EReal) (xt : ι → μ → EReal) (ws : μ → Fin 20 → EReal) (bs : Fin 20 → EReal)
    (W : Fin 4 → Fin 20 → ο → EReal) (be : ο → EReal) : ι → ο → EReal :=
  outK (fun d => hK p q a (h0f xt ws bs) d.val) W be

/-- One channel, row-normalised. -/
def chanR (p q : EReal) (a : ι → ι → EReal) (xt : ι → μ → EReal) (ws : μ → Fin 20 → EReal) (bs : Fin 20 → EReal)
    (W : Fin 80 → ο → EReal) (be : ο → EReal) : ι → ο → EReal :=
  outR (fun d => hR p q a (h0f xt ws bs) d.val) W be

end Plain

/-! ## The arrays of this layer -/

/-- The two mixing coefficients, as the f32 words both programs carry (0.05 and 0.95 rounded to f32). -/
def cα : EReal := Ideal.ofBits .f32 0x3D4CCCCD#32
def cβ : EReal := Ideal.ofBits .f32 0x3F733333#32

/-- The adjacency slice of batch element `b`, channel `c`. -/
abbrev adjAt (x1 : (⟨4, ![8, 16, 1024, 1024]⟩ : Shape).Idx → EReal) (b : Fin 8) (c : Fin 16) : Fin 1024 → Fin 1024 → EReal :=
  fun v w => x1 (ix4 b c v w)

/-- The input slice of batch element `b`, channel `c`, node by feature: the input is stored feature-major. -/
abbrev xtAt (x0 : (⟨4, ![8, 32, 1024, 16]⟩ : Shape).Idx → EReal) (b : Fin 8) (c : Fin 16) : Fin 1024 → Fin 32 → EReal :=
  fun n k => x0 (ix4 b k n c)

/-- A matrix, a vector, by coordinates. -/
abbrev mat2 {m n : Nat} (x : (⟨2, ![m, n]⟩ : Shape).Idx → EReal) : Fin m → Fin n → EReal := fun i j => x (ix2 i j)
abbrev vec1 {n : Nat} (x : (⟨1, ![n]⟩ : Shape).Idx → EReal) : Fin n → EReal := fun i => x (ix1 i)

/-- The layer's result array as one function of its six argument arrays: entry `(b, c, n, o)` is entry `(n, o)` of the
    factored channel of batch element `b`, channel `c`. -/
def G (x0 : (⟨4, ![8, 32, 1024, 16]⟩ : Shape).Idx → EReal) (x1 : (⟨4, ![8, 16, 1024, 1024]⟩ : Shape).Idx → EReal)
    (x2 : (⟨2, ![32, 20]⟩ : Shape).Idx → EReal) (x3 : (⟨1, ![20]⟩ : Shape).Idx → EReal)
    (x4 : (⟨2, ![80, 32]⟩ : Shape).Idx → EReal) (x5 : (⟨1, ![32]⟩ : Shape).Idx → EReal) :
    (⟨4, ![8, 16, 1024, 32]⟩ : Shape).Idx → EReal :=
  fun i => chanK cα cβ (adjAt x1 (i 0) (i 1)) (xtAt x0 (i 0) (i 1)) (mat2 x2) (vec1 x3) (segW (mat2 x4)) (vec1 x5) (i 2) (i 3)

end Cert.Mix

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.LibRowReduce.lean ====
/-
  Row reductions of an R × C float array at the ideal instance, read with coordinates.

  A kernel's lane sum and lane maximum over the second axis, and the host's reduce with a maximum body over it, at row
  `r`: the sum over `k` of the entries `(r, k)`, and the maximum of those entries folded from the initial value.
  The f32 pattern of minus infinity is the bottom element of the extended reals.
-/
import Idealize.ShloMosaic.PureOps.Ideal.Laws
import Idealize.ShloMosaic.Lib.ValueIdx

noncomputable section

namespace Cert.LibRowReduce

open Idealize.ShloMosaic Idealize.ShloMosaic.ValueIdx

variable {R C : Nat}

/-- Row `r` with the dropped second coordinate `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- A kernel's sum over the second axis, at row `r`. -/
theorem rowSum_kernel (src : FVec Ideal ⟨2, ![R, C]⟩ .f32) (acc : BitVec 32)
    (h : (⟨2, ![R, C]⟩ : Shape).Reduces [1] (⟨1, ![R]⟩ : Shape)) (hφ : FKind.Formats .f32)
    (hacc : acc = FKind.add.neutral .f32 hφ) (r : Fin R) :
    multiReduction .add [1] ⟨1, ![R]⟩ src acc h hφ hacc (ix1 r) = ∑ k : Fin C, src (ix2 r k) :=
  (Ideal.multiReduction_add_single src acc h hφ hacc (ix1 r)).trans
    (Finset.sum_congr rfl fun k _ => congrArg src (lift_row h r k))

/-- A kernel's maximum over the second axis, at row `r`: folded from the accumulator's value. -/
theorem rowMax_kernel (src : FVec Ideal ⟨2, ![R, C]⟩ .f32) (acc : BitVec 32)
    (h : (⟨2, ![R, C]⟩ : Shape).Reduces [1] (⟨1, ![R]⟩ : Shape)) (hφ : FKind.Formats .f32)
    (hacc : acc = FKind.maximumf.neutral .f32 hφ) (r : Fin R) :
    multiReduction .maximumf [1] ⟨1, ![R]⟩ src acc h hφ hacc (ix1 r)
      = (Finset.univ : Finset (Fin C)).fold max (Ideal.ofBits .f32 acc) (fun k => src (ix2 r k)) := by
  refine (Ideal.multiReduction_maximumf_single src acc h hφ hacc (ix1 r)).trans ?_
  have hf : (src ∘ h.lift (ix1 r)) = fun k : Fin C => src (ix2 r k) := funext fun k => congrArg src (lift_row h r k)
  exact congrArg (fun f => Finset.fold max (Ideal.ofBits .f32 acc) f (Finset.univ : Finset (Fin C))) hf

/-- The host's reduce with a maximum body over the second axis, at row `r`: folded from the initial value. -/
theorem rowMax_host (x : FVec Ideal ⟨2, ![R, C]⟩ .f32) (init : (⟨0, ![]⟩ : Shape).Idx → EReal)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R) :
    Host.reduce (FloatOps.maximumf (F := Ideal) (φ := .f32)) x init h' hu (ix1 r)
      = (Finset.univ : Finset (Fin C)).fold max (init (Shape.Idx.first hu)) (fun k => x (ix2 r k)) := by
  rw [Host.reduce_eq_fold_single (FloatOps.maximumf (F := Ideal) (φ := .f32)) x init h' h hu]
  have hf : (x ∘ h.lift (ix1 r)) = fun k : Fin C => x (ix2 r k) := funext fun k => congrArg x (lift_row h r k)
  exact congrArg (fun f => Finset.fold max (init (Shape.Idx.first hu)) f (Finset.univ : Finset (Fin C))) hf

/-- The f32 pattern of minus infinity denotes the bottom element. -/
theorem ofBits_neg_inf : Ideal.ofBits .f32 0xFF800000#32 = ⊥ := by simp [Ideal.ofBits, Ideal.ieee]

end Cert.LibRowReduce

end
-- ==== Proof.LibColumn.lean ====
/-
  Column-shaped layout operations read at an index given by coordinates, for any element type and any extents.

  A length-a vector reshaped to an a×1 column reads at (i, 0) the vector's entry i; an a×1 column reshaped to a 1×a row
  reads at (0, i) the column's entry (i, 0) (both keep the row-major order); and an a×1 column repeated along b columns
  reads at (p, c) the column's entry (p, 0).
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A length-`a` vector cast to an `a × 1` column reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a `1 × a` row reads, at `(0, i)`, the column's entry `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `a × 1` column repeated along `b` columns reads, at `(p, c)`, the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernChan.lean ====
/-
  The two stored pieces of one grid step, read at an index.

  Each grid step handles two channels. For one channel the kernel forms the start layer h₀ = xt · ws + bs, the row sums
  of the adjacency slice plus one, three hops h ↦ p · h₀ + q · ((a · h + h) / (rowsum a + 1)), and the end layer hop by
  hop. This file reads that computation entry by entry: every matrix product is a finite sum, every row sum a finite
  sum, every reshaping and repetition an index map, and the narrowing casts change nothing at the extended reals. The
  result is the factored channel `chanK` of the loaded slices.
-/
import proofs.«172304_j27212912787591_2_alg».proof.Proof.Gen.KernelIdeal.Frame
import proofs.«172304_j27212912787591_2_alg».proof.Proof.Spec
import proofs.«172304_j27212912787591_2_alg».proof.Proof.LibPlainDot
import proofs.«172304_j27212912787591_2_alg».proof.Proof.LibRowReduce
import proofs.«172304_j27212912787591_2_alg».proof.Proof.LibColumn

noncomputable section

open scoped BigOperators

namespace Cert.KernelIdeal.ChanValue

open Cert.KernelIdeal Cert.KernelIdeal.Gen Idealize.ShloMosaic Idealize.ShloMosaic.ValueIdx Cert.Mix
open Cert.LibPlainDot Cert.LibRowReduce Cert.LibColumn

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A `[1, b]` array cast to its own shape reads the operand. -/
theorem shapeCast_self_apply {α : Type} {s : Shape} (x : s.Idx → α) (h : s.ShapeCasts s) (j : s.Idx) :
    shapeCast s x h j = x j :=
  shapeCast_apply x h j j rfl

/-- The f32 word of one denotes one. -/
theorem ofBits_one_f32 : Ideal.ofBits .f32 0x3F800000#32 = 1 := by
  simp [Ideal.ofBits, Ideal.ieee, -EReal.coe_mul]; norm_num

/-! ## The pieces of a channel as vector-level terms -/

/-- One hop's product with a segment of the end weight. -/
def endV (H : FVec Ideal S1024x20 .f32) (W : FVec Ideal S20x32 .f32) : FVec Ideal S1024x32 .f32 :=
  matmul dot_S1024x20_S20x32_S1024x32_1_0_0_1_n_n none (truncf .bf16 H bitsLt_bf16_f32) (truncf .bf16 W bitsLt_bf16_f32)
    (constant S1024x32 .f32 0x00000000#32)

/-- The normalised propagation `(a · h + h) / rowsum`. -/
def contribV (RS : FVec Ideal S1024x1 .f32) (A : FVec Ideal S1024x1024 .bf16) (H : FVec Ideal S1024x20 .f32) :
    FVec Ideal S1024x20 .f32 :=
  divf (addf (matmul dot_S1024x1024_S1024x20_S1024x20_1_0_0_1_n_n none A (truncf .bf16 H bitsLt_bf16_f32)
    (constant S1024x20 .f32 0x00000000#32)) H) (broadcastTo S1024x20 RS broadcasts_S1024x1_S1024x20)

/-- One hop. -/
def stepV (RS : FVec Ideal S1024x1 .f32) (A : FVec Ideal S1024x1024 .bf16) (H0 H : FVec Ideal S1024x20 .f32) :
    FVec Ideal S1024x20 .f32 :=
  addf (mulf (broadcast S1024x20 (Scalar.ofBits .f32 0x3D4CCCCD#32)) H0)
    (mulf (broadcast S1024x20 (Scalar.ofBits .f32 0x3F733333#32)) (contribV RS A H))

/-- The end layer's last steps: the accumulated products plus the bias row, as a `[1, 1, 1024, 32]` piece. -/
def outV (BE : FVec Ideal S1x32 .f32) (P01 P2 P3 : FVec Ideal S1024x32 .f32) : FVec Ideal S1x1x1024x32 .f32 :=
  shapeCast S1x1x1024x32 (addf (addf (addf P01 P2) P3) (broadcastTo S1024x32 BE broadcasts_S1x32_S1024x32))
    shapeCasts_S1024x32_S1x1x1024x32

/-- The first channel's stored piece in these terms. -/
theorem pay11_eq (v5 : FVec Ideal S1x32 .f32) (v11 : FVec Ideal S1024x1 .f32) (v12 : FVec Ideal S1024x1024 .bf16)
    (v18 : FVec Ideal S1024x20 .f32) (v22 : FVec Ideal S1024x32 .f32) (v32 : FVec Ideal S1024x20 .f32)
    (w1 w2 w3 : Vec Ideal S20x32 .f32) :
    k0_pay11 v5 v11 v12 v18 v22 v32 w1 w2 w3
      = outV v5 (addf v22 (endV v32 w1)) (endV (stepV v11 v12 v18 v32) w2)
          (endV (stepV v11 v12 v18 (stepV v11 v12 v18 v32)) w3) := rfl

/-- The second channel's stored piece in these terms. -/
theorem pay1_eq (v5 : FVec Ideal S1x32 .f32) (v78 : FVec Ideal S1024x1 .f32) (v79 : FVec Ideal S1024x1024 .bf16)
    (v85 : FVec Ideal S1024x20 .f32) (v104 : FVec Ideal S1024x32 .f32) (v109 v111 : FVec Ideal S1024x20 .f32)
    (c : Ideal .f32) (w2 w3 : Vec Ideal S20x32 .f32) :
    k0_pay1 v5 v78 v79 v85 v104 v109 v111 c w2 w3
      = outV v5 v104 (endV (addf v111 (mulf (broadcast S1024x20 c) v109)) w2)
          (endV (stepV v78 v79 v85 (addf v111 (mulf (broadcast S1024x20 c) v109))) w3) := rfl

/-! ## Reading the vector-level terms at an index -/

/-- A hop times a weight segment, at `(n, o)`: the sum over the hop's 20 columns. -/
theorem endV_apply (H : FVec Ideal S1024x20 .f32) (W : FVec Ideal S20x32 .f32) (n : Fin 1024) (o : Fin 32) :
    endV H W (ix2 n o) = ∑ l : Fin 20, H (ix2 n l) * W (ix2 l o) := by
  show FloatOps.matmul (DotDims.plain 1024 20 32) none (truncf (F := Ideal) .bf16 H bitsLt_bf16_f32)
    (truncf (F := Ideal) .bf16 W bitsLt_bf16_f32) (constant ⟨2, ![1024, 32]⟩ .f32 0x00000000#32) (ix2 n o) = _
  rw [matmul_plain_zero_apply]
  rfl

/-- The normalised propagation at `(v, l)`. -/
theorem contribV_apply (RS : FVec Ideal S1024x1 .f32) (A : FVec Ideal S1024x1024 .bf16) (H : FVec Ideal S1024x20 .f32)
    (v : Fin 1024) (l : Fin 20) :
    contribV RS A H (ix2 v l)
      = Ideal.div ((∑ w : Fin 1024, A (ix2 v w) * H (ix2 w l)) + H (ix2 v l)) (RS (ix2 v (0 : Fin 1))) := by
  show Ideal.div (FloatOps.matmul (DotDims.plain 1024 1024 20) none A (truncf (F := Ideal) .bf16 H bitsLt_bf16_f32)
      (constant ⟨2, ![1024, 20]⟩ .f32 0x00000000#32) (ix2 v l) + H (ix2 v l))
    (broadcastTo S1024x20 RS broadcasts_S1024x1_S1024x20 (ix2 v l)) = _
  rw [matmul_plain_zero_apply, broadcastTo_a1_ab_apply]
  rfl

/-- One hop at `(v, l)`. -/
theorem stepV_apply (RS : FVec Ideal S1024x1 .f32) (A : FVec Ideal S1024x1024 .bf16) (H0 H : FVec Ideal S1024x20 .f32)
    (v : Fin 1024) (l : Fin 20) :
    stepV RS A H0 H (ix2 v l) = cα * H0 (ix2 v l) + cβ * contribV RS A H (ix2 v l) := rfl

/-- The end layer's last steps at `(0, 0, n, o)`. -/
theorem outV_apply (BE : FVec Ideal S1x32 .f32) (P01 P2 P3 : FVec Ideal S1024x32 .f32) (n : Fin 1024) (o : Fin 32) :
    outV BE P01 P2 P3 (ix4 (0 : Fin 1) (0 : Fin 1) n o)
      = ((P01 (ix2 n o) + P2 (ix2 n o)) + P3 (ix2 n o)) + BE (ix2 (0 : Fin 1) o) := by
  unfold outV
  rw [shapeCast_ab_11ab_apply]
  show ((P01 (ix2 n o) + P2 (ix2 n o)) + P3 (ix2 n o)) + broadcastTo S1024x32 BE broadcasts_S1x32_S1024x32 (ix2 n o) = _
  rw [broadcastTo_1b_ab_apply]

/-! ## The same, against functions of plain coordinates -/

/-- A hop that reads `h` by coordinates, times a weight segment. -/
theorem endV_eq (H : FVec Ideal S1024x20 .f32) (W : FVec Ideal S20x32 .f32) (h : Fin 1024 → Fin 20 → EReal)
    (hH : ∀ n l, H (ix2 n l) = h n l) (n : Fin 1024) (o : Fin 32) :
    endV H W (ix2 n o) = ∑ l : Fin 20, h n l * mat2 W l o := by
  rw [endV_apply]
  exact Finset.sum_congr rfl fun l _ => by rw [hH]

/-- One hop of arrays that read `rsK a`, `a`, `h0`, `h` by coordinates is the factored hop. -/
theorem stepV_eq (a : Fin 1024 → Fin 1024 → EReal) (h0 h : Fin 1024 → Fin 20 → EReal)
    (RS : FVec Ideal S1024x1 .f32) (A : FVec Ideal S1024x1024 .bf16) (H0 H : FVec Ideal S1024x20 .f32)
    (hRS : ∀ v, RS (ix2 v (0 : Fin 1)) = rsK a v) (hA : ∀ v w, A (ix2 v w) = a v w)
    (hH0 : ∀ v l, H0 (ix2 v l) = h0 v l) (hH : ∀ v l, H (ix2 v l) = h v l) (v : Fin 1024) (l : Fin 20) :
    stepV RS A H0 H (ix2 v l) = stepK cα cβ a h0 h v l := by
  have hs : (∑ w : Fin 1024, A (ix2 v w) * H (ix2 w l)) = ∑ w, a v w * h w l :=
    Finset.sum_congr rfl fun w _ => by rw [hA, hH]
  rw [stepV_apply, contribV_apply, hs, hRS, hH0, hH]
  rfl

/-- The end layer over the start layer and three hops of it is the factored end layer over the factored hops. -/
theorem outV_chan (a : Fin 1024 → Fin 1024 → EReal) (h0 : Fin 1024 → Fin 20 → EReal) (be : Fin 32 → EReal)
    (BE : FVec Ideal S1x32 .f32) (RS : FVec Ideal S1024x1 .f32) (A : FVec Ideal S1024x1024 .bf16)
    (H0 : FVec Ideal S1024x20 .f32) (w0 w1 w2 w3 : FVec Ideal S20x32 .f32)
    (hBE : ∀ o, BE (ix2 (0 : Fin 1) o) = be o) (hRS : ∀ v, RS (ix2 v (0 : Fin 1)) = rsK a v)
    (hA : ∀ v w, A (ix2 v w) = a v w) (hH0 : ∀ v l, H0 (ix2 v l) = h0 v l) (n : Fin 1024) (o : Fin 32) :
    outV BE (addf (endV H0 w0) (endV (stepV RS A H0 H0) w1)) (endV (stepV RS A H0 (stepV RS A H0 H0)) w2)
        (endV (stepV RS A H0 (stepV RS A H0 (stepV RS A H0 H0))) w3) (ix4 (0 : Fin 1) (0 : Fin 1) n o)
      = outK (fun d => hK cα cβ a h0 d.val) (fun d => mat2 (sel4 w0 w1 w2 w3 d)) be n o := by
  have h1 : ∀ v l, stepV RS A H0 H0 (ix2 v l) = hK cα cβ a h0 1 v l :=
    fun v l => stepV_eq a h0 h0 RS A H0 H0 hRS hA hH0 hH0 v l
  have h2 : ∀ v l, stepV RS A H0 (stepV RS A H0 H0) (ix2 v l) = hK cα cβ a h0 2 v l :=
    fun v l => stepV_eq a h0 _ RS A H0 _ hRS hA hH0 h1 v l
  have h3 : ∀ v l, stepV RS A H0 (stepV RS A H0 (stepV RS A H0 H0)) (ix2 v l) = hK cα cβ a h0 3 v l :=
    fun v l => stepV_eq a h0 _ RS A H0 _ hRS hA hH0 h2 v l
  rw [outV_apply, addf_apply, endV_eq _ _ _ hH0, endV_eq _ _ _ h1, endV_eq _ _ _ h2, endV_eq _ _ _ h3, hBE]
  rfl

/-! ## The loaded slices through the kernel's first steps -/

/-- The adjacency slice as a matrix, at `(v, w)`. -/
theorem pay5_apply (va : Vec Ideal S1x1x1024x1024 .f32) (v w : Fin 1024) :
    k0_pay5 va (ix2 v w) = va (ix4 (0 : Fin 1) (0 : Fin 1) v w) :=
  shapeCast_11ab_ab_apply va shapeCasts_S1x1x1024x1024_S1024x1024 v w

/-- Its narrowed copy reads the same. -/
theorem pay7_apply (va : Vec Ideal S1x1x1024x1024 .f32) (v w : Fin 1024) :
    k0_pay7 va (ix2 v w) = va (ix4 (0 : Fin 1) (0 : Fin 1) v w) :=
  pay5_apply va v w

/-- The row sums plus one, at row `v`. -/
theorem pay6_apply (va : Vec Ideal S1x1x1024x1024 .f32) (v : Fin 1024) :
    k0_pay6 va (ix2 v (0 : Fin 1)) = rsK (fun v w => va (ix4 (0 : Fin 1) (0 : Fin 1) v w)) v := by
  have hsum : multiReduction (F := Ideal) .add [1] S1024 (k0_pay5 va) 0x00000000#32 reduces_S1024x1024_S1024
      (.inl rfl) rfl (ix1 v) = ∑ w : Fin 1024, va (ix4 (0 : Fin 1) (0 : Fin 1) v w) :=
    (rowSum_kernel (R := 1024) (C := 1024) (k0_pay5 va) 0x00000000#32 reduces_S1024x1024_S1024 (.inl rfl) rfl v).trans
      (Finset.sum_congr rfl fun w _ => pay5_apply va v w)
  show shapeCast S1024x1 (multiReduction (F := Ideal) .add [1] S1024 (k0_pay5 va) 0x00000000#32 reduces_S1024x1024_S1024
      (.inl rfl) rfl) shapeCasts_S1024_S1024x1 (ix2 v (0 : Fin 1)) + Ideal.ofBits .f32 0x3F800000#32 = _
  rw [shapeCast_a_a1_apply, ofBits_one_f32]
  exact congrArg (· + 1) hsum

/-- The start layer at `(n, l)`. -/
theorem pay8_apply (v0 : Vec Ideal S32x20 .f32) (v2 : Vec Ideal S1x20 .f32) (vx : Vec Ideal S1x1x1024x32 .f32)
    (n : Fin 1024) (l : Fin 20) :
    k0_pay8 v0 v2 vx (ix2 n l)
      = h0f (fun n i => vx (ix4 (0 : Fin 1) (0 : Fin 1) n i)) (mat2 v0) (fun l => v2 (ix2 (0 : Fin 1) l)) n l := by
  show FloatOps.matmul (DotDims.plain 1024 32 20) none
      (truncf (F := Ideal) .bf16 (shapeCast S1024x32 vx shapeCasts_S1x1x1024x32_S1024x32) bitsLt_bf16_f32) (k0_pay2 v0)
      (constant ⟨2, ![1024, 20]⟩ .f32 0x00000000#32) (ix2 n l)
    + broadcastTo S1024x20 (k0_pay3 v2) broadcasts_S1x20_S1024x20 (ix2 n l) = _
  rw [matmul_plain_zero_apply, broadcastTo_1b_ab_apply]
  unfold h0f
  congr 1
  · refine Finset.sum_congr rfl fun i _ => ?_
    show shapeCast S1024x32 vx shapeCasts_S1x1x1024x32_S1024x32 (ix2 n i) * v0 (ix2 i l) = _
    rw [shapeCast_11ab_ab_apply]
  · exact shapeCast_self_apply v2 shapeCasts_S1x20_S1x20 _

/-- The end bias row. -/
theorem pay4_apply (v4 : Vec Ideal S1x32 .f32) (o : Fin 32) : k0_pay4 v4 (ix2 (0 : Fin 1) o) = v4 (ix2 (0 : Fin 1) o) :=
  shapeCast_self_apply v4 shapeCasts_S1x32_S1x32 _

/-! ## The two stored pieces -/

/-- The first channel's stored piece, at `(0, 0, n, o)`, is the factored channel of the loaded slices. -/
theorem piece0_apply (va : Vec Ideal S1x1x1024x1024 .f32) (vx : Vec Ideal S1x1x1024x32 .f32) (v0 : Vec Ideal S32x20 .f32)
    (v2 : Vec Ideal S1x20 .f32) (w0 w1 w2 w3 : Vec Ideal S20x32 .f32) (v4 : Vec Ideal S1x32 .f32) (n : Fin 1024) (o : Fin 32) :
    k0_pay11 (k0_pay4 v4) (k0_pay6 va) (k0_pay7 va) (k0_pay8 v0 v2 vx) (k0_pay9 v0 v2 vx w0) (k0_pay10 v0 v2 va vx) w1 w2 w3
        (ix4 0 0 n o)
      = chanK cα cβ (fun v w => va (ix4 0 0 v w)) (fun n i => vx (ix4 0 0 n i)) (mat2 v0) (fun l => v2 (ix2 0 l))
          (fun d => mat2 (sel4 w0 w1 w2 w3 d)) (fun o => v4 (ix2 0 o)) n o := by
  rw [pay11_eq]
  exact outV_chan (fun v w => va (ix4 0 0 v w))
    (h0f (fun n i => vx (ix4 (0 : Fin 1) (0 : Fin 1) n i)) (mat2 v0) (fun l => v2 (ix2 (0 : Fin 1) l)))
    (fun o => v4 (ix2 0 o)) (k0_pay4 v4) (k0_pay6 va) (k0_pay7 va) (k0_pay8 v0 v2 vx) w0 w1 w2 w3
    (pay4_apply v4) (pay6_apply va) (pay7_apply va) (pay8_apply v0 v2 vx) n o

/-- The second channel's stored piece, at `(0, 0, n, o)`, is the factored channel of the loaded slices. -/
theorem piece1_apply (va : Vec Ideal S1x1x1024x1024 .f32) (vx : Vec Ideal S1x1x1024x32 .f32) (v0 : Vec Ideal S32x20 .f32)
    (v2 : Vec Ideal S1x20 .f32) (w0 w1 w2 w3 : Vec Ideal S20x32 .f32) (v4 : Vec Ideal S1x32 .f32) (n : Fin 1024) (o : Fin 32) :
    k0_pay1 (k0_pay4 v4) (k0_pay13 va) (k0_pay14 va) (k0_pay15 (k0_pay2 v0) (k0_pay3 v2) vx)
        (k0_pay17 (k0_pay2 v0) (k0_pay3 v2) va vx w0 w1) (k0_pay18 (k0_pay2 v0) (k0_pay3 v2) va vx)
        (k0_pay19 (k0_pay2 v0) (k0_pay3 v2) vx) (Scalar.ofBits .f32 0x3F733333#32) w2 w3 (ix4 0 0 n o)
      = chanK cα cβ (fun v w => va (ix4 0 0 v w)) (fun n i => vx (ix4 0 0 n i)) (mat2 v0) (fun l => v2 (ix2 0 l))
          (fun d => mat2 (sel4 w0 w1 w2 w3 d)) (fun o => v4 (ix2 0 o)) n o := by
  rw [pay1_eq]
  exact outV_chan (fun v w => va (ix4 0 0 v w))
    (h0f (fun n i => vx (ix4 (0 : Fin 1) (0 : Fin 1) n i)) (mat2 v0) (fun l => v2 (ix2 (0 : Fin 1) l)))
    (fun o => v4 (ix2 0 o)) (k0_pay4 v4) (k0_pay6 va) (k0_pay7 va) (k0_pay8 v0 v2 vx) w0 w1 w2 w3
    (pay4_apply v4) (pay6_apply va) (pay7_apply va) (pay8_apply v0 v2 vx) n o

end Cert.KernelIdeal.ChanValue

end
-- ==== Proof.Blocks.lean ====
/-
  From the blocks the grid points write to the whole result array.

  The grid has 8 × 8 points; point (b, p) stages batch element b's adjacency slices and transposed input slices of the
  two channels 2p and 2p + 1, and the whole of both weights and both biases; it writes back a [1, 2, 1024, 32] block
  made of two stored pieces, one per channel.  Each piece, read at (0, 0, n, o), is the factored channel (`Cert.Mix.chanK`)
  of the staged blocks read by coordinates; the staged blocks are the argument arrays at batch element b and channel
  2p + cl (the input through the transpose that precedes the call, the biases through their reshapes to one row).
  So every point writes back its block of ONE function of the argument arrays, `Cert.Mix.G`; the 64 blocks tile the
  result array (batch element b, channel c lies in the block of point (b, c / 2)), hence the array after the run is
  that function.
-/
import proofs.«172304_j27212912787591_2_alg».proof.Proof.Gen.KernelIdeal.Value
import proofs.«172304_j27212912787591_2_alg».proof.Proof.Spec
import proofs.«172304_j27212912787591_2_alg».proof.Proof.KernChan
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.Mix

variable (m : (ℓ : Loc nD τ sig) → Buf (Elt Ideal) ℓ) (ρ : Dev nD → PrngReg)

theorem idx_facts : ∀ t : Fin cfg0.N,
    win0_0.index t (0 : Fin 4) = win0_6.index t (0 : Fin 4) ∧ win0_0.index t (1 : Fin 4) = win0_6.index t (1 : Fin 4)
    ∧ win0_0.index t (2 : Fin 4) = 0 ∧ win0_0.index t (3 : Fin 4) = 0
    ∧ win0_1.index t (0 : Fin 4) = win0_6.index t (0 : Fin 4) ∧ win0_1.index t (1 : Fin 4) = win0_6.index t (1 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) < 8 ∧ win0_6.index t (1 : Fin 4) < 8
    ∧ win0_6.index t (2 : Fin 4) = 0 ∧ win0_6.index t (3 : Fin 4) = 0 :=
  (by decide +kernel : ∀ t : Fin grid0.N, _)

/-- Every (batch, channel-pair) block index is some point's. -/
theorem idx_onto : ∀ (q0 : Fin 8) (q1 : Fin 8), ∃ t : Fin cfg0.N, win0_6.index t (0 : Fin 4) = q0.val ∧ win0_6.index t (1 : Fin 4) = q1.val :=
  (by decide +kernel : ∀ (q0 : Fin 8) (q1 : Fin 8), ∃ t : Fin grid0.N, win0_6.index t (0 : Fin 4) = q0.val ∧ win0_6.index t (1 : Fin 4) = q1.val)

theorem V_v0 (c : Dev nD) : (V m c main_v0 : S8x16x1024x32.Idx → EReal)
    = transpose S8x16x1024x32 [0, 3, 2, 1] (m ((c : Thread nD τ).loc main_arg0)) transposes_S8x32x1024x16_S8x16x1024x32_0_3_2_1 := by
  dsimp only [Gen.V, Gen.hostOps0]; after_results

theorem V_v1 (c : Dev nD) : (V m c main_v1 : S1x20.Idx → EReal)
    = shapeCast S1x20 (m ((c : Thread nD τ).loc main_arg3)) shapeCasts_S20_S1x20 := by
  dsimp only [Gen.V, Gen.hostOps0]; after_results; rfl

theorem V_v2 (c : Dev nD) : (V m c main_v2 : S1x32.Idx → EReal)
    = shapeCast S1x32 (m ((c : Thread nD τ).loc main_arg5)) shapeCasts_S32_S1x32 := by
  dsimp only [Gen.V, Gen.hostOps0]; after_results; rfl

/-- The adjacency window's block at point `t`, by coordinates: batch element `index 0`, channels `2 · index 1` and the next. -/
theorem iblk0_apply (c : Dev nD) (t : Fin cfg0.N) (x : S1x2x1024x1024.Idx) (k : S8x16x1024x1024.Idx)
    (h0 : (k 0).val = win0_6.index t (0 : Fin 4) + (x 0).val) (h1 : (k 1).val = win0_6.index t (1 : Fin 4) * 2 + (x 1).val)
    (h2 : (k 2).val = (x 2).val) (h3 : (k 3).val = (x 3).val) :
    (iblk m c 0 t : Vec Ideal S1x2x1024x1024 .f32) x = (m ((c : Thread nD τ).loc main_arg1) : S8x16x1024x1024.Idx → EReal) k := by
  obtain ⟨e0, e1, e2, e3, -⟩ := idx_facts t
  unfold iblk
  rw [View.read_apply]
  show V m c main_arg1 _ = _
  rw [V_main_arg1]
  congr 1
  funext a; apply Fin.ext
  match a with
  | ⟨0, _⟩ => show win0_0.index t (0 : Fin 4) * 1 + 1 * (x 0).val = (k 0).val; omega
  | ⟨1, _⟩ => show win0_0.index t (1 : Fin 4) * 2 + 1 * (x 1).val = (k 1).val; omega
  | ⟨2, _⟩ => show win0_0.index t (2 : Fin 4) * 1024 + 1 * (x 2).val = (k 2).val; omega
  | ⟨3, _⟩ => show win0_0.index t (3 : Fin 4) * 1024 + 1 * (x 3).val = (k 3).val; omega

/-- The transposed-input window's block at point `t`, by coordinates of the untransposed input. -/
theorem iblk1_apply (c : Dev nD) (t : Fin cfg0.N) (x : S1x2x1024x32.Idx) (k : S8x32x1024x16.Idx)
    (h0 : (k 0).val = win0_6.index t (0 : Fin 4) + (x 0).val) (h1 : (k 3).val = win0_6.index t (1 : Fin 4) * 2 + (x 1).val)
    (h2 : (k 2).val = (x 2).val) (h3 : (k 1).val = (x 3).val) :
    (iblk m c 1 t : Vec Ideal S1x2x1024x32 .f32) x = (m ((c : Thread nD τ).loc main_arg0) : S8x32x1024x16.Idx → EReal) k := by
  obtain ⟨-, -, -, -, e0, e1, e2, e3, -⟩ := idx_facts t
  unfold iblk
  rw [View.read_apply]
  show V m c main_v0 _ = _
  rw [V_v0]
  refine transpose_apply [0, 3, 2, 1] _ transposes_S8x32x1024x16_S8x16x1024x32_0_3_2_1 _ k (fun b => ?_)
  match b with
  | ⟨0, _⟩ => show (k 0).val = win0_1.index t (0 : Fin 4) * 1 + 1 * (x 0).val; omega
  | ⟨1, _⟩ => show (k 3).val = win0_1.index t (1 : Fin 4) * 2 + 1 * (x 1).val; omega
  | ⟨2, _⟩ => show (k 2).val = win0_1.index t (2 : Fin 4) * 1024 + 1 * (x 2).val; omega
  | ⟨3, _⟩ => show (k 1).val = win0_1.index t (3 : Fin 4) * 32 + 1 * (x 3).val; omega

/-- The start weight's window holds the whole weight at every point. -/
theorem iblk2_apply (c : Dev nD) (t : Fin cfg0.N) (x : S32x20.Idx) :
    (iblk m c 2 t : Vec Ideal S32x20 .f32) x = (m ((c : Thread nD τ).loc main_arg2) : S32x20.Idx → EReal) x := by
  obtain ⟨-, -, -, -, -, -, -, -, e0, e1, -⟩ := idx_facts t
  unfold iblk
  rw [View.read_apply]
  show V m c main_arg2 _ = _
  rw [V_main_arg2]
  congr 1
  funext a; apply Fin.ext
  match a with
  | ⟨0, _⟩ => show win0_2.index t (0 : Fin 2) * 32 + 1 * (x 0).val = (x 0).val; omega
  | ⟨1, _⟩ => show win0_2.index t (1 : Fin 2) * 20 + 1 * (x 1).val = (x 1).val; omega

/-- The start bias's window holds the bias as a row. -/
theorem iblk3_apply (c : Dev nD) (t : Fin cfg0.N) (u : Fin 1) (l : Fin 20) :
    (iblk m c 3 t : Vec Ideal S1x20 .f32) (ix2 u l) = (m ((c : Thread nD τ).loc main_arg3) : S20.Idx → EReal) (ix1 l) := by
  obtain ⟨-, -, -, -, -, -, -, -, -, -, e0, e1, -⟩ := idx_facts t
  unfold iblk
  rw [View.read_apply]
  show V m c main_v1 _ = _
  rw [V_v1]
  have he : ((cfg0.win 3).blk t).view.emb (ix2 u l) = ix2 (0 : Fin 1) l := funext fun a => Fin.ext (by
    match a with
    | ⟨0, _⟩ => show win0_3.index t (0 : Fin 2) * 1 + 1 * u.val = 0; omega
    | ⟨1, _⟩ => show win0_3.index t (1 : Fin 2) * 20 + 1 * l.val = l.val; omega)
  rw [he]
  exact shapeCast_a_1a_apply _ _ 0 l

/-- The end weight's window holds the whole weight at every point. -/
theorem iblk4_apply (c : Dev nD) (t : Fin cfg0.N) (x : S80x32.Idx) :
    (iblk m c 4 t : Vec Ideal S80x32 .f32) x = (m ((c : Thread nD τ).loc main_arg4) : S80x32.Idx → EReal) x := by
  obtain ⟨-, -, -, -, -, -, -, -, -, -, -, -, e0, e1, -⟩ := idx_facts t
  unfold iblk
  rw [View.read_apply]
  show V m c main_arg4 _ = _
  rw [V_main_arg4]
  congr 1
  funext a; apply Fin.ext
  match a with
  | ⟨0, _⟩ => show win0_4.index t (0 : Fin 2) * 80 + 1 * (x 0).val = (x 0).val; omega
  | ⟨1, _⟩ => show win0_4.index t (1 : Fin 2) * 32 + 1 * (x 1).val = (x 1).val; omega

/-- The end bias's window holds the bias as a row. -/
theorem iblk5_apply (c : Dev nD) (t : Fin cfg0.N) (u : Fin 1) (o : Fin 32) :
    (iblk m c 5 t : Vec Ideal S1x32 .f32) (ix2 u o) = (m ((c : Thread nD τ).loc main_arg5) : S32.Idx → EReal) (ix1 o) := by
  obtain ⟨-, -, -, -, -, -, -, -, -, -, -, -, -, -, e0, e1, -⟩ := idx_facts t
  unfold iblk
  rw [View.read_apply]
  show V m c main_v2 _ = _
  rw [V_v2]
  have he : ((cfg0.win 5).blk t).view.emb (ix2 u o) = ix2 (0 : Fin 1) o := funext fun a => Fin.ext (by
    match a with
    | ⟨0, _⟩ => show win0_5.index t (0 : Fin 2) * 1 + 1 * u.val = 0; omega
    | ⟨1, _⟩ => show win0_5.index t (1 : Fin 2) * 32 + 1 * o.val = o.val; omega)
  rw [he]
  exact shapeCast_a_1a_apply _ _ 0 o

/-- The layer's result of the argument arrays as the run finds them. -/
abbrev Gm (c : Dev nD) : S8x16x1024x32.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- One channel of point `t`'s block: the factored channel of the six windows' blocks, read by coordinates, is the
    layer's result at batch element `index 0`, channel `2 · index 1 + cl`. -/
theorem chan_args (c : Dev nD) (t : Fin cfg0.N) (cl : Fin 2) (hb : win0_6.index t (0 : Fin 4) < 8)
    (hc : win0_6.index t (1 : Fin 4) * 2 + cl.val < 16)
    (va : Vec Ideal S1x1x1024x1024 .f32) (vx : Vec Ideal S1x1x1024x32 .f32) (v0 : Vec Ideal S32x20 .f32)
    (v2 : Vec Ideal S1x20 .f32) (w0 w1 w2 w3 : Vec Ideal S20x32 .f32) (v4 : Vec Ideal S1x32 .f32)
    (hva : ∀ (v w : Fin 1024), va (ix4 0 0 v w) = (iblk m c 0 t : Vec Ideal S1x2x1024x1024 .f32) (ix4 0 cl v w))
    (hvx : ∀ (n : Fin 1024) (i : Fin 32), vx (ix4 0 0 n i) = (iblk m c 1 t : Vec Ideal S1x2x1024x32 .f32) (ix4 0 cl n i))
    (hv0 : ∀ x, v0 x = (iblk m c 2 t : Vec Ideal S32x20 .f32) x)
    (hv2 : ∀ l : Fin 20, v2 (ix2 0 l) = (iblk m c 3 t : Vec Ideal S1x20 .f32) (ix2 0 l))
    (hw0 : ∀ (l : Fin 20) (o : Fin 32), w0 (ix2 l o) = (iblk m c 4 t : Vec Ideal S80x32 .f32) (ix2 (⟨20 * 0 + l.val, by omega⟩ : Fin 80) o))
    (hw1 : ∀ (l : Fin 20) (o : Fin 32), w1 (ix2 l o) = (iblk m c 4 t : Vec Ideal S80x32 .f32) (ix2 (⟨20 * 1 + l.val, by omega⟩ : Fin 80) o))
    (hw2 : ∀ (l : Fin 20) (o : Fin 32), w2 (ix2 l o) = (iblk m c 4 t : Vec Ideal S80x32 .f32) (ix2 (⟨20 * 2 + l.val, by omega⟩ : Fin 80) o))
    (hw3 : ∀ (l : Fin 20) (o : Fin 32), w3 (ix2 l o) = (iblk m c 4 t : Vec Ideal S80x32 .f32) (ix2 (⟨20 * 3 + l.val, by omega⟩ : Fin 80) o))
    (hv4 : ∀ o : Fin 32, v4 (ix2 0 o) = (iblk m c 5 t : Vec Ideal S1x32 .f32) (ix2 0 o))
    (n : Fin 1024) (o : Fin 32) :
    chanK cα cβ (fun v w => va (ix4 0 0 v w)) (fun n i => vx (ix4 0 0 n i)) (mat2 v0) (fun l => v2 (ix2 0 l))
        (fun d => mat2 (sel4 w0 w1 w2 w3 d)) (fun o => v4 (ix2 0 o)) n o
      = Gm m c (ix4 (⟨win0_6.index t (0 : Fin 4), hb⟩ : Fin 8) (⟨win0_6.index t (1 : Fin 4) * 2 + cl.val, hc⟩ : Fin 16) n o) := by
  have eA : (fun v w => va (ix4 0 0 v w))
      = adjAt (m ((c : Thread nD τ).loc main_arg1)) ⟨win0_6.index t (0 : Fin 4), hb⟩ ⟨win0_6.index t (1 : Fin 4) * 2 + cl.val, hc⟩ :=
    funext fun v => funext fun w => (hva v w).trans (iblk0_apply m c t _ _ rfl rfl rfl rfl)
  have eX : (fun n i => vx (ix4 0 0 n i))
      = xtAt (m ((c : Thread nD τ).loc main_arg0)) ⟨win0_6.index t (0 : Fin 4), hb⟩ ⟨win0_6.index t (1 : Fin 4) * 2 + cl.val, hc⟩ :=
    funext fun n => funext fun i => (hvx n i).trans (iblk1_apply m c t _ _ rfl rfl rfl rfl)
  have eWS : mat2 v0 = mat2 (m ((c : Thread nD τ).loc main_arg2)) :=
    funext fun i => funext fun l => (hv0 _).trans (iblk2_apply m c t _)
  have eBS : (fun l => v2 (ix2 0 l)) = vec1 (m ((c : Thread nD τ).loc main_arg3)) :=
    funext fun l => (hv2 l).trans (iblk3_apply m c t 0 l)
  have eW : (fun d => mat2 (sel4 w0 w1 w2 w3 d)) = segW (mat2 (m ((c : Thread nD τ).loc main_arg4))) := by
    funext d l o
    fin_cases d
    · exact (hw0 l o).trans (iblk4_apply m c t _)
    · exact (hw1 l o).trans (iblk4_apply m c t _)
    · exact (hw2 l o).trans (iblk4_apply m c t _)
    · exact (hw3 l o).trans (iblk4_apply m c t _)
  have eBE : (fun o => v4 (ix2 0 o)) = vec1 (m ((c : Thread nD τ).loc main_arg5)) :=
    funext fun o => (hv4 o).trans (iblk5_apply m c t 0 o)
  rw [eA, eX, eWS, eBS, eW, eBE]
  rfl

/-- A [1,1,1024,32] index is `(0, 0, n, o)`. -/
theorem eq_ix4_unit (x : S1x1x1024x32.Idx) : ∃ (n : Fin 1024) (o : Fin 32), x = ix4 (0 : Fin 1) (0 : Fin 1) n o := by
  refine ⟨x 2, x 3, funext fun a => Fin.ext ?_⟩
  match a with
  | ⟨0, _⟩ => have h : (x 0).val < 1 := (x 0).isLt; show (x 0).val = 0; omega
  | ⟨1, _⟩ => have h : (x 1).val < 1 := (x 1).isLt; show (x 1).val = 0; omega
  | ⟨2, _⟩ => rfl
  | ⟨3, _⟩ => rfl

/-- Where point `t`'s output block puts its local index `(0, cl, n, o)`. -/
theorem emb6 (t : Fin cfg0.N) (cl : Fin 2) (n : Fin 1024) (o : Fin 32) (hb : win0_6.index t (0 : Fin 4) < 8)
    (hc : win0_6.index t (1 : Fin 4) * 2 + cl.val < 16) :
    ((cfg0.win 6).blk t).view.emb (ix4 (0 : Fin 1) cl n o)
      = ix4 (⟨win0_6.index t (0 : Fin 4), hb⟩ : Fin 8) (⟨win0_6.index t (1 : Fin 4) * 2 + cl.val, hc⟩ : Fin 16) n o := by
  obtain ⟨-, -, -, -, -, -, -, -, -, -, -, -, -, -, -, -, -, -, e2, e3⟩ := idx_facts t
  funext a; apply Fin.ext
  match a with
  | ⟨0, _⟩ => show win0_6.index t (0 : Fin 4) * 1 + 1 * 0 = win0_6.index t (0 : Fin 4); omega
  | ⟨1, _⟩ => show win0_6.index t (1 : Fin 4) * 2 + 1 * cl.val = win0_6.index t (1 : Fin 4) * 2 + cl.val; omega
  | ⟨2, _⟩ => show win0_6.index t (2 : Fin 4) * 1024 + 1 * n.val = n.val; omega
  | ⟨3, _⟩ => show win0_6.index t (3 : Fin 4) * 32 + 1 * o.val = o.val; omega

/-- The piece stored for the block's first channel is the layer's result there. -/
theorem piece0_eq (c : Dev nD) (t : Fin cfg0.N) (x : S1x1x1024x32.Idx) :
    k0_pay11 (k0_pay4 (View.ld (iblk m c 5 t) r0_2)) (k0_pay6 (View.ld (iblk m c 0 t) r0_3)) (k0_pay7 (View.ld (iblk m c 0 t) r0_3))
        (k0_pay8 (View.ld (iblk m c 2 t) r0_0) (View.ld (iblk m c 3 t) r0_1) (View.ld (iblk m c 1 t) r0_4))
        (k0_pay9 (View.ld (iblk m c 2 t) r0_0) (View.ld (iblk m c 3 t) r0_1) (View.ld (iblk m c 1 t) r0_4) (View.ld (iblk m c 4 t) r0_5))
        (k0_pay10 (View.ld (iblk m c 2 t) r0_0) (View.ld (iblk m c 3 t) r0_1) (View.ld (iblk m c 0 t) r0_3) (View.ld (iblk m c 1 t) r0_4))
        (View.ld (iblk m c 4 t) r0_6) (View.ld (iblk m c 4 t) r0_7) (View.ld (iblk m c 4 t) r0_8) x
      = Gm m c (((cfg0.win 6).blk t).view.emb (r0_4.emb x)) := by
  have hf := idx_facts t
  have hb : win0_6.index t (0 : Fin 4) < 8 := hf.2.2.2.2.2.2.2.2.2.2.2.2.2.2.2.2.1
  have hc1 : win0_6.index t (1 : Fin 4) < 8 := hf.2.2.2.2.2.2.2.2.2.2.2.2.2.2.2.2.2.1
  have hc : win0_6.index t (1 : Fin 4) * 2 + (0 : Fin 2).val < 16 := by show _ * 2 + 0 < 16; omega
  obtain ⟨n, o, rfl⟩ := eq_ix4_unit x
  have he : r0_4.emb (ix4 (0 : Fin 1) (0 : Fin 1) n o) = ix4 (0 : Fin 1) (0 : Fin 2) n o := by
    funext a; apply Fin.ext
    match a with
    | ⟨0, _⟩ => rfl
    | ⟨1, _⟩ => rfl
    | ⟨2, _⟩ => show 0 + 1 * n.val = n.val; omega
    | ⟨3, _⟩ => show 0 + 1 * o.val = o.val; omega
  rw [he, emb6 t 0 n o hb hc, Cert.KernelIdeal.ChanValue.piece0_apply]
  refine chan_args m c t 0 hb hc _ _ _ _ _ _ _ _ _ ?_ ?_ ?_ ?_ ?_ ?_ ?_ ?_ ?_ n o
  · intro v w
    exact congrArg (iblk m c 0 t : Vec Ideal S1x2x1024x1024 .f32) (funext fun a => Fin.ext (by
      match a with
      | ⟨0, _⟩ => rfl
      | ⟨1, _⟩ => rfl
      | ⟨2, _⟩ => show 0 + 1 * v.val = v.val; omega
      | ⟨3, _⟩ => show 0 + 1 * w.val = w.val; omega))
  · intro n i
    exact congrArg (iblk m c 1 t : Vec Ideal S1x2x1024x32 .f32) (funext fun a => Fin.ext (by
      match a with
      | ⟨0, _⟩ => rfl
      | ⟨1, _⟩ => rfl
      | ⟨2, _⟩ => show 0 + 1 * n.val = n.val; omega
      | ⟨3, _⟩ => show 0 + 1 * i.val = i.val; omega))
  · intro y
    exact congrArg (iblk m c 2 t : Vec Ideal S32x20 .f32) (funext fun a => Fin.ext (by
      match a with
      | ⟨0, _⟩ => show 0 + 1 * (y 0).val = (y 0).val; omega
      | ⟨1, _⟩ => show 0 + 1 * (y 1).val = (y 1).val; omega))
  · intro l
    exact congrArg (iblk m c 3 t : Vec Ideal S1x20 .f32) (funext fun a => Fin.ext (by
      match a with
      | ⟨0, _⟩ => rfl
      | ⟨1, _⟩ => show 0 + 1 * l.val = l.val; omega))
  · intro l o
    exact congrArg (iblk m c 4 t : Vec Ideal S80x32 .f32) (funext fun a => Fin.ext (by
      match a with
      | ⟨0, _⟩ => show 0 + 1 * l.val = 20 * 0 + l.val; omega
      | ⟨1, _⟩ => show 0 + 1 * o.val = o.val; omega))
  · intro l o
    exact congrArg (iblk m c 4 t : Vec Ideal S80x32 .f32) (funext fun a => Fin.ext (by
      match a with
      | ⟨0, _⟩ => show 20 + 1 * l.val = 20 * 1 + l.val; omega
      | ⟨1, _⟩ => show 0 + 1 * o.val = o.val; omega))
  · intro l o
    exact congrArg (iblk m c 4 t : Vec Ideal S80x32 .f32) (funext fun a => Fin.ext (by
      match a with
      | ⟨0, _⟩ => show 40 + 1 * l.val = 20 * 2 + l.val; omega
      | ⟨1, _⟩ => show 0 + 1 * o.val = o.val; omega))
  · intro l o
    exact congrArg (iblk m c 4 t : Vec Ideal S80x32 .f32) (funext fun a => Fin.ext (by
      match a with
      | ⟨0, _⟩ => show 60 + 1 * l.val = 20 * 3 + l.val; omega
      | ⟨1, _⟩ => show 0 + 1 * o.val = o.val; omega))
  · intro o
    exact congrArg (iblk m c 5 t : Vec Ideal S1x32 .f32) (funext fun a => Fin.ext (by
      match a with
      | ⟨0, _⟩ => rfl
      | ⟨1, _⟩ => show 0 + 1 * o.val = o.val; omega))

/-- The piece stored for the block's second channel is the layer's result there. -/
theorem piece1_eq (c : Dev nD) (t : Fin cfg0.N) (x : S1x1x1024x32.Idx) :
    k0_pay1 (k0_pay4 (View.ld (iblk m c 5 t) r0_2)) (k0_pay13 (View.ld (iblk m c 0 t) r0_9)) (k0_pay14 (View.ld (iblk m c 0 t) r0_9))
        (k0_pay15 (k0_pay2 (View.ld (iblk m c 2 t) r0_0)) (k0_pay3 (View.ld (iblk m c 3 t) r0_1)) (View.ld (iblk m c 1 t) r0_10))
        (k0_pay17 (k0_pay2 (View.ld (iblk m c 2 t) r0_0)) (k0_pay3 (View.ld (iblk m c 3 t) r0_1)) (View.ld (iblk m c 0 t) r0_9) (View.ld (iblk m c 1 t) r0_10) (View.ld (iblk m c 4 t) r0_5) (View.ld (iblk m c 4 t) r0_6))
        (k0_pay18 (k0_pay2 (View.ld (iblk m c 2 t) r0_0)) (k0_pay3 (View.ld (iblk m c 3 t) r0_1)) (View.ld (iblk m c 0 t) r0_9) (View.ld (iblk m c 1 t) r0_10))
        (k0_pay19 (k0_pay2 (View.ld (iblk m c 2 t) r0_0)) (k0_pay3 (View.ld (iblk m c 3 t) r0_1)) (View.ld (iblk m c 1 t) r0_10))
        (Scalar.ofBits .f32 0x3F733333#32) (View.ld (iblk m c 4 t) r0_7) (View.ld (iblk m c 4 t) r0_8) x
      = Gm m c (((cfg0.win 6).blk t).view.emb (r0_10.emb x)) := by
  have hf := idx_facts t
  have hb : win0_6.index t (0 : Fin 4) < 8 := hf.2.2.2.2.2.2.2.2.2.2.2.2.2.2.2.2.1
  have hc1 : win0_6.index t (1 : Fin 4) < 8 := hf.2.2.2.2.2.2.2.2.2.2.2.2.2.2.2.2.2.1
  have hc : win0_6.index t (1 : Fin 4) * 2 + (1 : Fin 2).val < 16 := by show _ * 2 + 1 < 16; omega
  obtain ⟨n, o, rfl⟩ := eq_ix4_unit x
  have he : r0_10.emb (ix4 (0 : Fin 1) (0 : Fin 1) n o) = ix4 (0 : Fin 1) (1 : Fin 2) n o := by
    funext a; apply Fin.ext
    match a with
    | ⟨0, _⟩ => rfl
    | ⟨1, _⟩ => rfl
    | ⟨2, _⟩ => show 0 + 1 * n.val = n.val; omega
    | ⟨3, _⟩ => show 0 + 1 * o.val = o.val; omega
  rw [he, emb6 t 1 n o hb hc, Cert.KernelIdeal.ChanValue.piece1_apply]
  refine chan_args m c t 1 hb hc _ _ _ _ _ _ _ _ _ ?_ ?_ ?_ ?_ ?_ ?_ ?_ ?_ ?_ n o
  · intro v w
    exact congrArg (iblk m c 0 t : Vec Ideal S1x2x1024x1024 .f32) (funext fun a => Fin.ext (by
      match a with
      | ⟨0, _⟩ => rfl
      | ⟨1, _⟩ => rfl
      | ⟨2, _⟩ => show 0 + 1 * v.val = v.val; omega
      | ⟨3, _⟩ => show 0 + 1 * w.val = w.val; omega))
  · intro n i
    exact congrArg (iblk m c 1 t : Vec Ideal S1x2x1024x32 .f32) (funext fun a => Fin.ext (by
      match a with
      | ⟨0, _⟩ => rfl
      | ⟨1, _⟩ => rfl
      | ⟨2, _⟩ => show 0 + 1 * n.val = n.val; omega
      | ⟨3, _⟩ => show 0 + 1 * i.val = i.val; omega))
  · intro y
    exact congrArg (iblk m c 2 t : Vec Ideal S32x20 .f32) (funext fun a => Fin.ext (by
      match a with
      | ⟨0, _⟩ => show 0 + 1 * (y 0).val = (y 0).val; omega
      | ⟨1, _⟩ => show 0 + 1 * (y 1).val = (y 1).val; omega))
  · intro l
    exact congrArg (iblk m c 3 t : Vec Ideal S1x20 .f32) (funext fun a => Fin.ext (by
      match a with
      | ⟨0, _⟩ => rfl
      | ⟨1, _⟩ => show 0 + 1 * l.val = l.val; omega))
  · intro l o
    exact congrArg (iblk m c 4 t : Vec Ideal S80x32 .f32) (funext fun a => Fin.ext (by
      match a with
      | ⟨0, _⟩ => show 0 + 1 * l.val = 20 * 0 + l.val; omega
      | ⟨1, _⟩ => show 0 + 1 * o.val = o.val; omega))
  · intro l o
    exact congrArg (iblk m c 4 t : Vec Ideal S80x32 .f32) (funext fun a => Fin.ext (by
      match a with
      | ⟨0, _⟩ => show 20 + 1 * l.val = 20 * 1 + l.val; omega
      | ⟨1, _⟩ => show 0 + 1 * o.val = o.val; omega))
  · intro l o
    exact congrArg (iblk m c 4 t : Vec Ideal S80x32 .f32) (funext fun a => Fin.ext (by
      match a with
      | ⟨0, _⟩ => show 40 + 1 * l.val = 20 * 2 + l.val; omega
      | ⟨1, _⟩ => show 0 + 1 * o.val = o.val; omega))
  · intro l o
    exact congrArg (iblk m c 4 t : Vec Ideal S80x32 .f32) (funext fun a => Fin.ext (by
      match a with
      | ⟨0, _⟩ => show 60 + 1 * l.val = 20 * 3 + l.val; omega
      | ⟨1, _⟩ => show 0 + 1 * o.val = o.val; omega))
  · intro o
    exact congrArg (iblk m c 5 t : Vec Ideal S1x32 .f32) (funext fun a => Fin.ext (by
      match a with
      | ⟨0, _⟩ => rfl
      | ⟨1, _⟩ => show 0 + 1 * o.val = o.val; omega))

/-- WHAT POINT `t` WRITES BACK is block `t` of the layer's result of the argument arrays. -/
theorem flushed_eq (c : Dev nD) (t : Fin cfg0.N) :
    (dats m 0 c).flushed 6 t = ((cfg0.win 6).blk t).view.read (Elt Ideal) (Gm m c) := by
  rw [Value.flushed6]
  funext y
  show out0_6 (iblk m c 0 t) (iblk m c 1 t) (iblk m c 2 t) (iblk m c 3 t) (iblk m c 4 t) (iblk m c 5 t) y
    = Gm m c (((cfg0.win 6).blk t).view.emb y)
  unfold out0_6
  refine View.canon_apply_of_pieces (Val := Elt Ideal) (S := S1x2x1024x32) (e := .f32)
    (fun y => Gm m c (((cfg0.win 6).blk t).view.emb y)) _ ?_ y (cover0_6 _ _ y)
  intro p hp x
  simp only [List.mem_cons, List.mem_nil_iff, or_false] at hp
  rcases hp with rfl | rfl
  · exact piece1_eq m c t x
  · exact piece0_eq m c t x

/-- An index of the result array is in point `t`'s block iff each coordinate is in the block's range on its axis. -/
theorem mem_blk (t : Fin cfg0.N) (i : S8x16x1024x32.Idx) :
    i ∈ ((cfg0.win 6).blk t).view.set ↔ ∀ a : Fin 4, win0_6.index t a * S1x2x1024x32.size a ≤ (i a).val ∧ (i a).val < win0_6.index t a * S1x2x1024x32.size a + S1x2x1024x32.size a := by
  show i ∈ ((View.whole main_v3).slice (win0_6.rect t)).set ↔ _
  rw [View.set_slice_whole, Rect.mem_set_unit]
  exact Iff.rfl

/-- Every index of the result array lies in some point's block: batch element `b`, channel `c` in the block of
    the point with indices `(b, c / 2)`. -/
theorem cover (i : S8x16x1024x32.Idx) : ∃ t : Fin cfg0.N, (cfg0.win 6).flush t = true ∧ i ∈ ((cfg0.win 6).blk t).view.set := by
  have hi0 : (i 0).val < 8 := (i 0).isLt
  have hi1 : (i 1).val < 16 := (i 1).isLt
  have hi2 : (i 2).val < 1024 := (i 2).isLt
  have hi3 : (i 3).val < 32 := (i 3).isLt
  obtain ⟨t, q0, q1⟩ := idx_onto ⟨(i 0).val, hi0⟩ ⟨(i 1).val / 2, by omega⟩
  obtain ⟨-, -, -, -, -, -, -, -, -, -, -, -, -, -, -, -, -, -, e2, e3⟩ := idx_facts t
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; rw [q0]; show (i 0).val * 1 ≤ (i 0).val ∧ (i 0).val < (i 0).val * 1 + 1; omega
  | ⟨1, _⟩ => show win0_6.index t (1 : Fin 4) * 2 ≤ (i 1).val ∧ (i 1).val < win0_6.index t (1 : Fin 4) * 2 + 2; rw [q1]; show (i 1).val / 2 * 2 ≤ (i 1).val ∧ (i 1).val < (i 1).val / 2 * 2 + 2; omega
  | ⟨2, _⟩ => show win0_6.index t (2 : Fin 4) * 1024 ≤ (i 2).val ∧ (i 2).val < win0_6.index t (2 : Fin 4) * 1024 + 1024; omega
  | ⟨3, _⟩ => show win0_6.index t (3 : Fin 4) * 32 ≤ (i 3).val ∧ (i 3).val < win0_6.index t (3 : Fin 4) * 32 + 32; omega

/-- THE RESULT ARRAY after the run is the layer's result of the argument arrays. -/
theorem final (c : Dev nD) : (dats m 0 c).arrAt 6 cfg0.N = Gm m c :=
  (dats m 0 c).arrAt_eq_of_cover 6 (Gm m c) (fun t _ => flushed_eq m c t) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.RefRead.lean ====
/-
  The reference program read at an index.

  Entry (b, c, n, o) of the reference's result is entry (n, o) of the row-normalised channel of batch element b,
  channel c: the identity matrix is read off the two index grids, the row sums of a + I off the reduction, the
  start layer and the three hops off the matrix products, the joined hops off the concatenation (column k of the
  joined array is column k % 20 of hop k / 20), and the end layer off the last product and its bias.
-/
import proofs.«172304_j27212912787591_2_alg».proof.Proof.Gen.ReferenceIdeal.Read
import proofs.«172304_j27212912787591_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Mix

/-! ## The identity matrix -/

/-- Two numbers below 1024 are equal exactly when their 32-bit words are. -/
theorem word_beq (v w : Fin 1024) : (BitVec.ofNat 32 v.val == BitVec.ofNat 32 w.val) = decide (v = w) := by
  by_cases h : v = w
  · subst h; simp
  · have hne : BitVec.ofNat 32 v.val ≠ BitVec.ofNat 32 w.val := by
      intro e
      have e' := congrArg BitVec.toNat e
      simp only [BitVec.toNat_ofNat] at e'
      have hv := v.isLt
      have hw := w.isLt
      rw [Nat.mod_eq_of_lt (by omega), Nat.mod_eq_of_lt (by omega)] at e'
      exact h (Fin.ext e')
    simp [h, hne]

/-- The one-bit word of "v + 0 = w", read as a number, is the identity matrix's entry. -/
theorem eye_word (v w : Fin 1024) :
    (FloatOps.uitofp (F := Ideal) .f32
      (IntOp.cmpi .eq (IntOp.addi (BitVec.ofNat 32 v.val) 0#32) (BitVec.ofNat 32 w.val)) : EReal) = eye v w := by
  show (((BitVec.ofBool (BitVec.ofNat 32 v.val + 0#32 == BitVec.ofNat 32 w.val)).toNat : ℝ) : EReal) = eye v w
  rw [BitVec.add_zero, word_beq]
  unfold eye
  by_cases h : v = w
  · simp [h]
  · simp [h]

theorem v7_at (b : Fin 8) (c : Fin 16) (v w : Fin 1024) :
    val_main_v7 (F := Ideal) (ix4 b c v w) = eye v w := by
  rw [val_main_v7_apply, val_main_v6_apply, val_main_v5_apply, val_main_v4_apply, val_main_v3_apply,
    val_main_v0_apply, val_main_v1_apply, val_main_v2_apply, val_main_c_apply]
  exact eye_word v w

/-! ## a + I, its row sums, and the normalised matrix -/

theorem v8_at (x1 : (⟨S8x16x1024x1024, .f32⟩ : BufTy).Contents (Elt Ideal)) (b : Fin 8) (c : Fin 16) (v w : Fin 1024) :
    val_main_v8 (F := Ideal) x1 (ix4 b c v w) = x1 (ix4 b c v w) + eye v w := by
  rw [val_main_v8_apply, v7_at]
  rfl

theorem v9_at (x1 : (⟨S8x16x1024x1024, .f32⟩ : BufTy).Contents (Elt Ideal)) (b : Fin 8) (c : Fin 16) (v : Fin 1024) :
    val_main_v9 (F := Ideal) x1 (ix3 b c v) = rsR (adjAt x1 b c) v := by
  rw [val_main_v9_apply, val_main_cst_apply, Ideal.ofBits_def, Ideal.ofBits_zero_f32, zero_add]
  unfold rsR
  refine Finset.sum_congr rfl fun k _ => ?_
  have e : idx_main_v9 (ix3 b c v) k = ix4 b c v k :=
    funext fun a => Fin.ext (by match a with | ⟨0, _⟩ => rfl | ⟨1, _⟩ => rfl | ⟨2, _⟩ => rfl | ⟨3, _⟩ => rfl)
  rw [e]
  exact v8_at x1 b c v k

theorem v12_at (x1 : (⟨S8x16x1024x1024, .f32⟩ : BufTy).Contents (Elt Ideal)) (b : Fin 8) (c : Fin 16) (v w : Fin 1024) :
    val_main_v12 (F := Ideal) x1 (ix4 b c v w)
      = Ideal.div (x1 (ix4 b c v w) + eye v w) (rsR (adjAt x1 b c) v) := by
  rw [val_main_v12_apply, val_main_v11_apply, val_main_v10_apply, v8_at]
  have e : idx_main_v10 (idx_main_v11 (ix4 b c v w)) = ix3 b c v :=
    funext fun a => Fin.ext (by match a with | ⟨0, _⟩ => rfl | ⟨1, _⟩ => rfl | ⟨2, _⟩ => rfl)
  rw [e, v9_at]
  rfl

/-! ## The start layer -/

theorem v17_at (x0 : (⟨S8x32x1024x16, .f32⟩ : BufTy).Contents (Elt Ideal)) (x2 : (⟨S32x20, .f32⟩ : BufTy).Contents (Elt Ideal))
    (x3 : (⟨S20, .f32⟩ : BufTy).Contents (Elt Ideal)) (b : Fin 8) (c : Fin 16) (n : Fin 1024) (l : Fin 20) :
    val_main_v17 (F := Ideal) x0 x2 x3 (ix4 b c n l) = h0f (xtAt x0 b c) (mat2 x2) (vec1 x3) n l := by
  rw [val_main_v17_apply, val_main_v14_apply, val_main_v16_apply, val_main_v15_apply]
  unfold h0f
  refine congrArg₂ (· + ·) (Finset.sum_congr rfl fun k _ => ?_) ?_
  · rw [val_main_v13_apply]
    refine congrArg₂ (· * ·) (congrArg x0 ?_) (congrArg x2 ?_)
    · exact funext fun a => Fin.ext (by match a with | ⟨0, _⟩ => rfl | ⟨1, _⟩ => rfl | ⟨2, _⟩ => rfl | ⟨3, _⟩ => rfl)
    · exact funext fun a => Fin.ext (by match a with | ⟨0, _⟩ => rfl | ⟨1, _⟩ => rfl)
  · exact congrArg x3 (funext fun a => Fin.ext (by match a with | ⟨0, _⟩ => rfl))

/-! ## One hop -/

/-- A hop over any previous stage, once the product's two operands are read by coordinates. -/
theorem hop_core (x1 : (⟨S8x16x1024x1024, .f32⟩ : BufTy).Contents (Elt Ideal)) (b : Fin 8) (c : Fin 16)
    (h0 hp : Fin 1024 → Fin 20 → EReal) (v : Fin 1024) (l : Fin 20) :
    (FloatOps.addf (F := Ideal) (φ := .f32) (FloatOps.mulf (FloatOps.ofBits .f32 0x3D4CCCCD#32) (h0 v l))
      (FloatOps.mulf (FloatOps.ofBits .f32 0x3F733333#32)
        (∑ k : Fin 1024, val_main_v12 (F := Ideal) x1 (ix4 b c v k) * hp k l)) : EReal)
      = stepR cα cβ (adjAt x1 b c) h0 hp v l := by
  unfold stepR
  show cα * h0 v l + cβ * _ = cα * h0 v l + cβ * _
  refine congrArg (fun t => cα * h0 v l + cβ * t) (Finset.sum_congr rfl fun k _ => ?_)
  rw [v12_at]

section Hops

variable (x0 : (⟨S8x32x1024x16, .f32⟩ : BufTy).Contents (Elt Ideal)) (x1 : (⟨S8x16x1024x1024, .f32⟩ : BufTy).Contents (Elt Ideal))
  (x2 : (⟨S32x20, .f32⟩ : BufTy).Contents (Elt Ideal)) (x3 : (⟨S20, .f32⟩ : BufTy).Contents (Elt Ideal))
  (b : Fin 8) (c : Fin 16)

/-- The first hop. -/
theorem v23_at (v : Fin 1024) (l : Fin 20) :
    val_main_v23 (F := Ideal) x0 x1 x2 x3 (ix4 b c v l)
      = hR cα cβ (adjAt x1 b c) (h0f (xtAt x0 b c) (mat2 x2) (vec1 x3)) 1 v l := by
  rw [val_main_v23_apply, val_main_v19_apply, val_main_v18_apply, val_main_cst_0_apply, val_main_v22_apply,
    val_main_v21_apply, val_main_cst_1_apply, val_main_v20_apply, v17_at]
  refine Eq.trans ?_ (hop_core x1 b c (h0f (xtAt x0 b c) (mat2 x2) (vec1 x3))
    (hR cα cβ (adjAt x1 b c) (h0f (xtAt x0 b c) (mat2 x2) (vec1 x3)) 0) v l)
  refine congrArg (fun t => FloatOps.addf (F := Ideal) (φ := .f32) (FloatOps.mulf (FloatOps.ofBits .f32 0x3D4CCCCD#32) _)
    (FloatOps.mulf (FloatOps.ofBits .f32 0x3F733333#32) t)) (Finset.sum_congr rfl fun k _ => ?_)
  have el : lidx_main_v20 (ix4 b c v l) k = ix4 b c v k :=
    funext fun a => Fin.ext (by match a with | ⟨0, _⟩ => rfl | ⟨1, _⟩ => rfl | ⟨2, _⟩ => rfl | ⟨3, _⟩ => rfl)
  have er : ridx_main_v20 (ix4 b c v l) k = ix4 b c k l :=
    funext fun a => Fin.ext (by match a with | ⟨0, _⟩ => rfl | ⟨1, _⟩ => rfl | ⟨2, _⟩ => rfl | ⟨3, _⟩ => rfl)
  rw [el, er, v17_at]
  rfl

/-- The second hop. -/
theorem v29_at (v : Fin 1024) (l : Fin 20) :
    val_main_v29 (F := Ideal) x0 x1 x2 x3 (ix4 b c v l)
      = hR cα cβ (adjAt x1 b c) (h0f (xtAt x0 b c) (mat2 x2) (vec1 x3)) 2 v l := by
  rw [val_main_v29_apply, val_main_v25_apply, val_main_v24_apply, val_main_cst_2_apply, val_main_v28_apply,
    val_main_v27_apply, val_main_cst_3_apply, val_main_v26_apply, v17_at]
  refine Eq.trans ?_ (hop_core x1 b c (h0f (xtAt x0 b c) (mat2 x2) (vec1 x3))
    (hR cα cβ (adjAt x1 b c) (h0f (xtAt x0 b c) (mat2 x2) (vec1 x3)) 1) v l)
  refine congrArg (fun t => FloatOps.addf (F := Ideal) (φ := .f32) (FloatOps.mulf (FloatOps.ofBits .f32 0x3D4CCCCD#32) _)
    (FloatOps.mulf (FloatOps.ofBits .f32 0x3F733333#32) t)) (Finset.sum_congr rfl fun k _ => ?_)
  have el : lidx_main_v26 (ix4 b c v l) k = ix4 b c v k :=
    funext fun a => Fin.ext (by match a with | ⟨0, _⟩ => rfl | ⟨1, _⟩ => rfl | ⟨2, _⟩ => rfl | ⟨3, _⟩ => rfl)
  have er : ridx_main_v26 (ix4 b c v l) k = ix4 b c k l :=
    funext fun a => Fin.ext (by match a with | ⟨0, _⟩ => rfl | ⟨1, _⟩ => rfl | ⟨2, _⟩ => rfl | ⟨3, _⟩ => rfl)
  rw [el, er, v23_at]

/-- The third hop. -/
theorem v35_at (v : Fin 1024) (l : Fin 20) :
    val_main_v35 (F := Ideal) x0 x1 x2 x3 (ix4 b c v l)
      = hR cα cβ (adjAt x1 b c) (h0f (xtAt x0 b c) (mat2 x2) (vec1 x3)) 3 v l := by
  rw [val_main_v35_apply, val_main_v31_apply, val_main_v30_apply, val_main_cst_4_apply, val_main_v34_apply,
    val_main_v33_apply, val_main_cst_5_apply, val_main_v32_apply, v17_at]
  refine Eq.trans ?_ (hop_core x1 b c (h0f (xtAt x0 b c) (mat2 x2) (vec1 x3))
    (hR cα cβ (adjAt x1 b c) (h0f (xtAt x0 b c) (mat2 x2) (vec1 x3)) 2) v l)
  refine congrArg (fun t => FloatOps.addf (F := Ideal) (φ := .f32) (FloatOps.mulf (FloatOps.ofBits .f32 0x3D4CCCCD#32) _)
    (FloatOps.mulf (FloatOps.ofBits .f32 0x3F733333#32) t)) (Finset.sum_congr rfl fun k _ => ?_)
  have el : lidx_main_v32 (ix4 b c v l) k = ix4 b c v k :=
    funext fun a => Fin.ext (by match a with | ⟨0, _⟩ => rfl | ⟨1, _⟩ => rfl | ⟨2, _⟩ => rfl | ⟨3, _⟩ => rfl)
  have er : ridx_main_v32 (ix4 b c v l) k = ix4 b c k l :=
    funext fun a => Fin.ext (by match a with | ⟨0, _⟩ => rfl | ⟨1, _⟩ => rfl | ⟨2, _⟩ => rfl | ⟨3, _⟩ => rfl)
  rw [el, er, v29_at]

/-! ## The joined hops -/

/-- The four pieces of the concatenation, by number. -/
def pieces : Fin 4 → (S8x16x1024x20.Idx → EReal) :=
  sel4 (val_main_v17 (F := Ideal) x0 x2 x3) (val_main_v23 (F := Ideal) x0 x1 x2 x3)
    (val_main_v29 (F := Ideal) x0 x1 x2 x3) (val_main_v35 (F := Ideal) x0 x1 x2 x3)

/-- Piece d is hop d. -/
theorem pieces_at (d : Fin 4) (n : Fin 1024) (l : Fin 20) :
    pieces x0 x1 x2 x3 d (ix4 b c n l)
      = hR cα cβ (adjAt x1 b c) (h0f (xtAt x0 b c) (mat2 x2) (vec1 x3)) d.val n l := by
  match d with
  | ⟨0, _⟩ => exact v17_at x0 x2 x3 b c n l
  | ⟨1, _⟩ => exact v23_at x0 x1 x2 x3 b c n l
  | ⟨2, _⟩ => exact v29_at x0 x1 x2 x3 b c n l
  | ⟨3, _⟩ => exact v35_at x0 x1 x2 x3 b c n l

/-- Column k of the joined array is column k % 20 of hop k / 20. -/
theorem v36_at (n : Fin 1024) (k : Fin 80) :
    val_main_v36 (F := Ideal) x0 x1 x2 x3 (ix4 b c n k)
      = hR cα cβ (adjAt x1 b c) (h0f (xtAt x0 b c) (mat2 x2) (vec1 x3)) (k.val / 20) n
          ⟨k.val % 20, Nat.mod_lt _ (by decide)⟩ := by
  have hk := k.isLt
  have key := concatenate_ofFn_apply (α := EReal) (t := S8x16x1024x80) (s₁ := S8x16x1024x20) (3 : Fin 4)
    (pieces x0 x1 x2 x3)
    concatenates_S8x16x1024x20_S8x16x1024x20_S8x16x1024x20_S8x16x1024x20_S8x16x1024x80_d3
    rfl 20 rfl (ix4 b c n k) (⟨k.val / 20, by omega⟩ : Fin 4) rfl
    (ix4 b c n (⟨k.val % 20, Nat.mod_lt _ (by decide)⟩ : Fin 20)) rfl
    (fun a ha => by
      match a with
      | ⟨0, _⟩ => rfl
      | ⟨1, _⟩ => rfl
      | ⟨2, _⟩ => rfl
      | ⟨3, _⟩ => exact absurd rfl ha)
  refine Eq.trans ?_ (key.trans (pieces_at x0 x1 x2 x3 b c ⟨k.val / 20, by omega⟩ n ⟨k.val % 20, Nat.mod_lt _ (by decide)⟩))
  rfl

end Hops

/-! ## The end layer -/

theorem ref_apply (x0 : (⟨S8x32x1024x16, .f32⟩ : BufTy).Contents (Elt Ideal)) (x1 : (⟨S8x16x1024x1024, .f32⟩ : BufTy).Contents (Elt Ideal))
    (x2 : (⟨S32x20, .f32⟩ : BufTy).Contents (Elt Ideal)) (x3 : (⟨S20, .f32⟩ : BufTy).Contents (Elt Ideal))
    (x4 : (⟨S80x32, .f32⟩ : BufTy).Contents (Elt Ideal)) (x5 : (⟨S32, .f32⟩ : BufTy).Contents (Elt Ideal))
    (b : Fin 8) (c : Fin 16) (n : Fin 1024) (o : Fin 32) :
    val_main_v40 (F := Ideal) x0 x1 x2 x3 x4 x5 (ix4 b c n o)
      = chanR cα cβ (adjAt x1 b c) (xtAt x0 b c) (mat2 x2) (vec1 x3) (mat2 x4) (vec1 x5) n o := by
  rw [val_main_v40_apply, val_main_v37_apply, val_main_v39_apply, val_main_v38_apply]
  unfold chanR outR
  refine congrArg₂ (· + ·) (Finset.sum_congr rfl fun k _ => ?_) ?_
  · have el : lidx_main_v37 (ix4 b c n o) k = ix4 b c n k :=
      funext fun a => Fin.ext (by match a with | ⟨0, _⟩ => rfl | ⟨1, _⟩ => rfl | ⟨2, _⟩ => rfl | ⟨3, _⟩ => rfl)
    have er : ridx_main_v37 (ix4 b c n o) k = ix2 k o :=
      funext fun a => Fin.ext (by match a with | ⟨0, _⟩ => rfl | ⟨1, _⟩ => rfl)
    rw [el, er, v36_at]
  · exact congrArg x5 (funext fun a => Fin.ext (by match a with | ⟨0, _⟩ => rfl))

end Cert.ReferenceIdeal.RefValue

end
-- ==== Proof.Law.lean ====
/-
  The two spellings of one mix-hop channel agree on real numbers.

  The row-normalised spelling divides each entry of `a + I` by its row sum and multiplies the concatenated hops by the
  whole end weight; the factored spelling adds `h` to `a · h`, divides once per row, and applies the end weight
  segment by segment.  The end layers agree for all extended reals (a sum over 80 rows is four sums over 20 rows).  The
  hops agree when every entry is a real number and no row sum of `a + I` vanishes: then division is multiplication by
  a real inverse, and the identity is distributivity in the field of real numbers.
-/
import Mathlib.Algebra.BigOperators.Fin
import Mathlib.Tactic.Ring
import proofs.«172304_j27212912787591_2_alg».proof.Proof.Spec

noncomputable section

open scoped BigOperators

namespace Cert.Mix

open Idealize.ShloMosaic Cert.LibExtReal

/-! ## The end layer: eighty rows are four blocks of twenty -/

/-- Row `20 d + l` of an eighty-row array. -/
def blk (d : Fin 4) (l : Fin 20) : Fin 80 :=
  ⟨20 * d.val + l.val, by have := d.isLt; have := l.isLt; omega⟩

/-- A sum over eighty rows, block by block. -/
theorem sum_fin80 {M : Type*} [AddCommMonoid M] (f : Fin 80 → M) :
    ∑ k, f k = (((∑ l, f (blk 0 l)) + ∑ l, f (blk 1 l)) + ∑ l, f (blk 2 l)) + ∑ l, f (blk 3 l) := by
  have e : ∑ k : Fin 80, f k = ∑ k : Fin (20 + 20 + 20 + 20), f k := rfl
  have h0 : ∀ l : Fin 20, f (Fin.castAdd 20 (Fin.castAdd 20 (Fin.castAdd 20 l))) = f (blk 0 l) :=
    fun l => congrArg f (Fin.ext (by simp [blk, Nat.add_comm]))
  have h1 : ∀ l : Fin 20, f (Fin.castAdd 20 (Fin.castAdd 20 (Fin.natAdd 20 l))) = f (blk 1 l) :=
    fun l => congrArg f (Fin.ext (by simp [blk, Nat.add_comm]))
  have h2 : ∀ l : Fin 20, f (Fin.castAdd 20 (Fin.natAdd (20 + 20) l)) = f (blk 2 l) :=
    fun l => congrArg f (Fin.ext (by simp [blk, Nat.add_comm]))
  have h3 : ∀ l : Fin 20, f (Fin.natAdd (20 + 20 + 20) l) = f (blk 3 l) :=
    fun l => congrArg f (Fin.ext (by simp [blk, Nat.add_comm]))
  rw [e, Fin.sum_univ_add, Fin.sum_univ_add, Fin.sum_univ_add]
  simp only [h0, h1, h2, h3]

variable {ι μ κ ο : Type} [Fintype ι] [DecidableEq ι] [Fintype μ] [Fintype κ]

/-- Row `20 d + l` lies in hop `d`, at column `l`. -/
theorem blk_div (d : Fin 4) (l : Fin 20) (h : (blk d l).val / 20 < 4) : (⟨(blk d l).val / 20, h⟩ : Fin 4) = d := by
  apply Fin.ext
  have := l.isLt
  show (20 * d.val + l.val) / 20 = d.val
  omega

theorem blk_mod (d : Fin 4) (l : Fin 20) (h : (blk d l).val % 20 < 20) : (⟨(blk d l).val % 20, h⟩ : Fin 20) = l := by
  apply Fin.ext
  have := l.isLt
  show (20 * d.val + l.val) % 20 = l.val
  omega

/-- The end layer on the concatenated hops is the end layer hop by hop, for all extended reals. -/
theorem outR_eq_outK (H : Fin 4 → ι → Fin 20 → EReal) (W : Fin 80 → ο → EReal) (be : ο → EReal) :
    outR H W be = outK H (segW W) be := by
  funext n o
  unfold outR outK
  rw [sum_fin80]
  simp only [blk_div, blk_mod]
  rfl

/-! ## Real numbers inside the extended reals -/

/-- The coercion of a finite sum of real numbers is the sum of the coercions. -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity matrix's entry is a real number. -/
theorem eye_coe (v w : ι) : eye v w = ((if v = w then 1 else 0 : ℝ) : EReal) := by
  unfold eye
  split_ifs <;> simp

/-- The two row sums of `a + I` agree: the identity's row sums to one. -/
theorem rsR_eq_rsK (a : ι → ι → EReal) (v : ι) : rsR a v = rsK a v := by
  unfold rsR rsK eye
  rw [Finset.sum_add_distrib]
  congr 1
  simp

/-- The row sum of `a + I` for real `a`, as a real number. -/
theorem rsK_coe (A : ι → ι → ℝ) (v : ι) :
    rsK (fun v w => (A v w : EReal)) v = (((∑ w, A v w) + 1 : ℝ) : EReal) := by
  unfold rsK
  rw [EReal.coe_add, coe_sum, EReal.coe_one]

/-- Distributivity in the real numbers: normalising the rows of `a + I` before the product is dividing after it. -/
theorem real_hop (A : ι → ι → ℝ) (H : ι → κ → ℝ) (c : ℝ) (v : ι) (l : κ) :
    ∑ w, (A v w + (if v = w then 1 else 0)) * c * H w l = ((∑ w, A v w * H w l) + H v l) * c := by
  have e : ∀ w, (A v w + (if v = w then 1 else 0)) * c * H w l
      = (A v w * H w l) * c + (if v = w then H w l * c else 0) := by
    intro w
    split_ifs <;> ring
  simp only [e]
  rw [Finset.sum_add_distrib, ← Finset.sum_mul]
  simp
  ring

/-- One hop on real numbers, in either spelling, is one real-valued function. -/
theorem stepK_coe (P Q : ℝ) (A : ι → ι → ℝ) (H0 H : ι → κ → ℝ) (hrs : ∀ v, (∑ w, A v w) + 1 ≠ 0) :
    stepK (P : EReal) (Q : EReal) (fun v w => (A v w : EReal)) (fun v l => (H0 v l : EReal)) (fun v l => (H v l : EReal))
      = fun v l => ((P * H0 v l + Q * (((∑ w, A v w * H w l) + H v l) * (1 / ((∑ w, A v w) + 1))) : ℝ) : EReal) := by
  funext v l
  unfold stepK
  rw [rsK_coe, Ideal.div_coe (hrs v)]
  simp only [EReal.coe_add, EReal.coe_mul, coe_sum]

theorem stepR_coe (P Q : ℝ) (A : ι → ι → ℝ) (H0 H : ι → κ → ℝ) (hrs : ∀ v, (∑ w, A v w) + 1 ≠ 0) :
    stepR (P : EReal) (Q : EReal) (fun v w => (A v w : EReal)) (fun v l => (H0 v l : EReal)) (fun v l => (H v l : EReal))
      = fun v l => ((P * H0 v l + Q * (((∑ w, A v w * H w l) + H v l) * (1 / ((∑ w, A v w) + 1))) : ℝ) : EReal) := by
  funext v l
  unfold stepR
  rw [rsR_eq_rsK, rsK_coe]
  simp only [Ideal.div_coe (hrs v), eye_coe]
  rw [← real_hop A H (1 / ((∑ w, A v w) + 1)) v l]
  simp only [EReal.coe_add, EReal.coe_mul, coe_sum]

/-- One hop: on real numbers with no vanishing row sum the two spellings agree, and the result is real-valued. -/
theorem stepR_eq_stepK {p q : EReal} (hp : IsReal p) (hq : IsReal q) {a : ι → ι → EReal} {h0 h : ι → κ → EReal}
    (ha : ∀ v w, IsReal (a v w)) (hh0 : ∀ v l, IsReal (h0 v l)) (hh : ∀ v l, IsReal (h v l))
    (hrs : ∀ v, rsR a v ≠ 0) :
    stepR p q a h0 h = stepK p q a h0 h ∧ ∀ v l, IsReal (stepK p q a h0 h v l) := by
  obtain ⟨P, rfl⟩ := hp
  obtain ⟨Q, rfl⟩ := hq
  choose A hA using ha
  choose H0 hH0 using hh0
  choose H hH using hh
  obtain rfl : a = fun v w => (A v w : EReal) := by funext v w; exact hA v w
  obtain rfl : h0 = fun v l => (H0 v l : EReal) := by funext v l; exact hH0 v l
  obtain rfl : h = fun v l => (H v l : EReal) := by funext v l; exact hH v l
  have hr : ∀ v, (∑ w, A v w) + 1 ≠ 0 := by
    intro v e
    apply hrs v
    rw [rsR_eq_rsK, rsK_coe, e, EReal.coe_zero]
  rw [stepR_coe P Q A H0 H hr, stepK_coe P Q A H0 H hr]
  exact ⟨rfl, fun v l => ⟨_, rfl⟩⟩

/-- All hops: the two spellings agree and are real-valued. -/
theorem hR_eq_hK {p q : EReal} (hp : IsReal p) (hq : IsReal q) {a : ι → ι → EReal} {h0 : ι → κ → EReal}
    (ha : ∀ v w, IsReal (a v w)) (hh0 : ∀ v l, IsReal (h0 v l)) (hrs : ∀ v, rsR a v ≠ 0) (d : ℕ) :
    hR p q a h0 d = hK p q a h0 d ∧ ∀ v l, IsReal (hK p q a h0 d v l) := by
  induction d with
  | zero => exact ⟨rfl, hh0⟩
  | succ d ih =>
    obtain ⟨e, hr⟩ := ih
    show stepR p q a h0 (hR p q a h0 d) = stepK p q a h0 (hK p q a h0 d)
      ∧ ∀ v l, IsReal (stepK p q a h0 (hK p q a h0 d) v l)
    rw [e]
    exact stepR_eq_stepK hp hq ha hh0 hr hrs

/-- The start layer of real numbers is real-valued. -/
theorem isReal_h0f {xt : ι → μ → EReal} {ws : μ → κ → EReal} {bs : κ → EReal}
    (hxt : ∀ n i, IsReal (xt n i)) (hws : ∀ i l, IsReal (ws i l)) (hbs : ∀ l, IsReal (bs l)) :
    ∀ n l, IsReal (h0f xt ws bs n l) :=
  fun n l => (isReal_sum _ _ fun i _ => (hxt n i).mul (hws i l)).add (hbs l)

/-- One channel: on real numbers with no vanishing row sum of `a + I` the two spellings agree. -/
theorem chanR_eq_chanK {p q : EReal} (hp : IsReal p) (hq : IsReal q) {a : ι → ι → EReal} {xt : ι → μ → EReal}
    {ws : μ → Fin 20 → EReal} {bs : Fin 20 → EReal} (ha : ∀ v w, IsReal (a v w)) (hxt : ∀ n i, IsReal (xt n i))
    (hws : ∀ i l, IsReal (ws i l)) (hbs : ∀ l, IsReal (bs l)) (hrs : ∀ v, rsR a v ≠ 0)
    (W : Fin 80 → ο → EReal) (be : ο → EReal) :
    chanR p q a xt ws bs W be = chanK p q a xt ws bs (segW W) be := by
  unfold chanR chanK
  rw [outR_eq_outK]
  congr 1
  funext d
  exact (hR_eq_hK hp hq ha (isReal_h0f hxt hws hbs) hrs d.val).1

/-! ## The two mixing coefficients are real numbers -/

/-- A pattern whose exponent field is not all ones denotes a real number. -/
theorem isReal_ieee {e m w : Nat} (b : BitVec w) (h : (b.extractLsb' m e).toNat ≠ 2 ^ e - 1) :
    IsReal (Ideal.ieee e m b) := by
  unfold Ideal.ieee
  simp only []
  rw [if_neg h]
  split_ifs <;> exact ⟨_, rfl⟩

theorem isReal_cα : IsReal cα := by
  show IsReal (Ideal.ieee 8 23 (0x3D4CCCCD#32))
  exact isReal_ieee _ (by decide)

theorem isReal_cβ : IsReal cβ := by
  show IsReal (Ideal.ieee 8 23 (0x3F733333#32))
  exact isReal_ieee _ (by decide)

end Cert.Mix

end
-- ==== Proof.RefG.lean ====
/-
  The reference's result array is the layer's function of its six argument arrays.

  Entry (b, c, n, o) of the reference's result is entry (n, o) of the row-normalised channel of batch element b,
  channel c.  When the input, the adjacency and the start weight and bias hold real numbers and no row sum of a + I
  vanishes, the row-normalised channel is the factored one, whose entries make up the array G.
-/
import proofs.«172304_j27212912787591_2_alg».proof.Proof.RefRead
import proofs.«172304_j27212912787591_2_alg».proof.Proof.Law

noncomputable section

open scoped BigOperators

namespace Cert.ReferenceIdeal.RefValue

open Cert.ReferenceIdeal Cert.ReferenceIdeal.Gen Cert.ReferenceIdeal.Read Idealize.ShloMosaic Idealize.ShloMosaic.ValueIdx Cert.Mix
  Cert.LibExtReal

theorem ref_eq_G (x0 : (⟨S8x32x1024x16, .f32⟩ : BufTy).Contents (Elt Ideal)) (x1 : (⟨S8x16x1024x1024, .f32⟩ : BufTy).Contents (Elt Ideal))
    (x2 : (⟨S32x20, .f32⟩ : BufTy).Contents (Elt Ideal)) (x3 : (⟨S20, .f32⟩ : BufTy).Contents (Elt Ideal))
    (x4 : (⟨S80x32, .f32⟩ : BufTy).Contents (Elt Ideal)) (x5 : (⟨S32, .f32⟩ : BufTy).Contents (Elt Ideal))
    (h0 : ∀ i, IsReal (x0 i)) (h1 : ∀ i, IsReal (x1 i)) (h2 : ∀ i, IsReal (x2 i)) (h3 : ∀ i, IsReal (x3 i))
    (hrs : ∀ (b : Fin 8) (c : Fin 16) (v : Fin 1024), rsR (adjAt x1 b c) v ≠ 0) :
    val_main_v40 (F := Ideal) x0 x1 x2 x3 x4 x5 = G x0 x1 x2 x3 x4 x5 := by
  funext i
  have e : i = ix4 (i 0) (i 1) (i 2) (i 3) := eq_ix4 (n0 := 8) (n1 := 16) (n2 := 1024) (n3 := 32) i
  calc val_main_v40 (F := Ideal) x0 x1 x2 x3 x4 x5 i
      = val_main_v40 (F := Ideal) x0 x1 x2 x3 x4 x5 (ix4 (i 0) (i 1) (i 2) (i 3)) :=
        congrArg (val_main_v40 (F := Ideal) x0 x1 x2 x3 x4 x5) e
    _ = chanR cα cβ (adjAt x1 (i 0) (i 1)) (xtAt x0 (i 0) (i 1)) (mat2 x2) (vec1 x3) (mat2 x4) (vec1 x5) (i 2) (i 3) :=
        ref_apply x0 x1 x2 x3 x4 x5 (i 0) (i 1) (i 2) (i 3)
    _ = chanK cα cβ (adjAt x1 (i 0) (i 1)) (xtAt x0 (i 0) (i 1)) (mat2 x2) (vec1 x3) (segW (mat2 x4)) (vec1 x5) (i 2) (i 3) :=
        congrFun (congrFun (chanR_eq_chanK isReal_cα isReal_cβ (fun v w => h1 _) (fun n k => h0 _) (fun k l => h2 _)
          (fun l => h3 _) (hrs (i 0) (i 1)) (mat2 x4) (vec1 x5)) (i 2)) (i 3)
    _ = G x0 x1 x2 x3 x4 x5 i := rfl

end Cert.ReferenceIdeal.RefValue

end
-- ==== Proof.PreDecode.lean ====
/-
  What the precondition says, as mathematics.

  The precondition is a conjunction of seven array-wide tests.  Six say that every entry of one argument array has
  absolute value below +∞; on the extended reals this means the entry is a real number.  The seventh builds the
  identity matrix from two index arrays, adds it to the adjacency array, sums each row, and says that no row sum is
  zero.  Here each test is read back at an arbitrary index.
-/
import proofs.«172304_j27212912787591_2_alg».proof.Pre_finite_inputs
import proofs.«172304_j27212912787591_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

open scoped BigOperators

namespace Cert.Pre_finite_inputs.Decode

variable [Cert.Pre_finite_inputs.Facts]

open Cert.Pre_finite_inputs Idealize.ShloMosaic Idealize.ShloMosaic.ValueIdx Cert.Mix Cert.LibExtReal

/-- The shape with no axes has one index. -/
instance : Subsingleton S_.Idx := ⟨fun a b => funext fun d => d.elim0⟩

open Cert.Pre_finite_inputs.Facts

/-! ## Scalar facts -/

/-- The f32 word of +∞ denotes the top element. -/
theorem ofBits_inf : Ideal.ofBits .f32 0x7F800000#32 = (⊤ : EReal) := by
  simp [Ideal.ofBits, Ideal.ieee]

/-- A one-bit word made from a Boolean is 1 exactly when the Boolean is true. -/
theorem ofBool_eq_one' {b : Bool} : BitVec.ofBool b = 1#1 ↔ b = true := by cases b <;> decide

/-- An extended real whose absolute value `max x (-x)` is below +∞ is a real number. -/
theorem isReal_of_abs_lt_inf (x : EReal)
    (h : Ideal.cmp .olt (max x (-x)) (Ideal.ofBits .f32 0x7F800000#32) = 1#1) : IsReal x := by
  rw [ofBits_inf] at h
  have h' : max x (-x) < ⊤ := by
    simpa only [Ideal.cmp, ofBool_eq_one', decide_eq_true_eq] using h
  induction x using EReal.rec with
  | bot => simp at h'
  | coe r => exact ⟨r, rfl⟩
  | top => simp at h'

/-! ## An array-wide finiteness test, read at an index -/

/-- If "every entry of `x` has absolute value below +∞" came out true, every entry of `x` is a real number. -/
theorem all_finite {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ix0 = 1#1) (i : s.Idx) : IsReal (x i) :=
  isReal_of_abs_lt_inf (x i) (Host.reduce_andi_all _ _ hr hu ix0 e i)

/-! ## The identity matrix as the program builds it -/

/-- A one-bit word that is not 1 is 0. -/
theorem bit_eq_zero_of_ne_one (c : BitVec 1) (h : c ≠ 1#1) : c = 0#1 := by revert c; decide

/-- For `v, w < 1024` the test "`v + 0 = w` as 32-bit words", read as an unsigned number, is the identity matrix's entry. -/
theorem eye_entry (v w : Fin 1024) :
    (FloatOps.uitofp (F := Ideal) .f32
        (IntOp.cmpi .eq (IntOp.addi (BitVec.ofNat 32 v.val) 0#32) (BitVec.ofNat 32 w.val)) : EReal) = eye v w := by
  show (((IntOp.cmpi .eq (IntOp.addi (BitVec.ofNat 32 v.val) 0#32) (BitVec.ofNat 32 w.val)).toNat : ℝ) : EReal) = eye v w
  unfold eye
  by_cases hvw : v = w
  · subst hvw
    rw [if_pos rfl, (IntOp.cmpi_eq).2 (by simp [IntOp.addi])]
    simp
  · rw [if_neg hvw]
    have hne : IntOp.cmpi .eq (IntOp.addi (BitVec.ofNat 32 v.val) 0#32) (BitVec.ofNat 32 w.val) = 0#1 := by
      apply bit_eq_zero_of_ne_one
      rw [ne_eq, IntOp.cmpi_eq]
      intro e
      apply hvw
      have e' := congrArg BitVec.toNat e
      simp only [IntOp.addi, BitVec.add_zero, BitVec.toNat_ofNat] at e'
      have hv := v.isLt
      have hw := w.isLt
      apply Fin.ext
      omega
    rw [hne]
    simp

/-! ## The row sums of `adj + I`, read at a row -/

/-- The identity array, as the program writes it: compare the row index plus zero with the column index, read the bit as a number. -/
def eyeArr : FVec Ideal S1024x1024 .f32 :=
  uitofp .f32 (cmpi .eq (addi (iotaInDim S1024x1024 32 0)
    (broadcastInDim S1024x1024 ![] bcast_S_S1024x1024 (constantI S_ 32 0#32))) (iotaInDim S1024x1024 32 1))

theorem eyeArr_apply (v w : Fin 1024) : eyeArr (ix2 v w) = eye v w :=
  eye_entry v w

/-- Summing `x1 + (E broadcast over batch and channel)` over the last axis from the zero word: at row `(b, c, v)` the sum
    over `w` of `x1 (b, c, v, w) + E (v, w)`. -/
theorem rowsum_apply (x1 : FVec Ideal S8x16x1024x1024 .f32) (E : FVec Ideal S1024x1024 .f32)
    (b : Fin 8) (c : Fin 16) (v : Fin 1024) :
    Host.reduceAdd (F := Ideal)
        (addf x1 (broadcastInDim S8x16x1024x1024 ![0, 1, 2, 3] bcast_S1x1x1024x1024_S8x16x1024x1024_0_1_2_3
          (broadcastInDim S1x1x1024x1024 ![2, 3] bcast_S1024x1024_S1x1x1024x1024_2_3 E)))
        (constant (F := Ideal) S_ .f32 0x00000000#32) reducesTo_S8x16x1024x1024_S8x16x1024_d3 h_S_ (ix3 b c v)
      = ∑ w : Fin 1024, (x1 (ix4 b c v w) + E (ix2 v w)) := by
  have hR : S8x16x1024x1024.Reduces [3] S8x16x1024 := by decide
  simp only [Host.reduceAdd, Ideal.hostReduceAdd_def]
  rw [Ideal.hostReduceAdd_single reducesTo_S8x16x1024x1024_S8x16x1024_d3 hR]
  show Ideal.ofBits .f32 0x00000000#32 + ∑ k : Fin 1024, _ = _
  rw [Ideal.ofBits_zero_f32, zero_add]
  refine Finset.sum_congr rfl fun k _ => ?_
  have hidx : hR.lift (ix3 b c v) k = ix4 b c v k := funext fun a => Fin.ext (by
    match a with
    | ⟨0, _⟩ => rfl
    | ⟨1, _⟩ => rfl
    | ⟨2, _⟩ => rfl
    | ⟨3, _⟩ => rfl)
  rw [hidx]
  show x1 (ix4 b c v k) + _ = x1 (ix4 b c v k) + _
  refine congrArg (x1 (ix4 b c v k) + ·) ?_
  refine (broadcastInDim_apply _ bcast_S1x1x1024x1024_S8x16x1024x1024_0_1_2_3 _ (ix4 b c v k)
    (ix4 (0 : Fin 1) (0 : Fin 1) v k) (fun a => match a with
      | ⟨0, _⟩ => by show 0 = if (1 : Nat) = 1 then 0 else b.val; rw [if_pos rfl]
      | ⟨1, _⟩ => by show 0 = if (1 : Nat) = 1 then 0 else c.val; rw [if_pos rfl]
      | ⟨2, _⟩ => by show v.val = if (1024 : Nat) = 1 then 0 else v.val; rw [if_neg (by decide)]
      | ⟨3, _⟩ => by show k.val = if (1024 : Nat) = 1 then 0 else k.val; rw [if_neg (by decide)])).trans ?_
  exact broadcastInDim_apply _ bcast_S1024x1024_S1x1x1024x1024_2_3 E (ix4 (0 : Fin 1) (0 : Fin 1) v k) (ix2 v k)
    (fun a => match a with
      | ⟨0, _⟩ => by show v.val = if (1024 : Nat) = 1 then 0 else v.val; rw [if_neg (by decide)]
      | ⟨1, _⟩ => by show k.val = if (1024 : Nat) = 1 then 0 else k.val; rw [if_neg (by decide)])

/-! ## The seventh test, read at a row -/

/-- An entry of "`y ≠ 0`, entry by entry" that is 1 says that entry of `y` is not zero. -/
theorem ne_zero_of_une {s : Shape} (hb : S_.BroadcastsInDim s (![] : Fin 0 → Fin s.rank)) (y : FVec Ideal s .f32) (i : s.Idx)
    (h : cmpf .une y (broadcastInDim s ![] hb (constant (F := Ideal) S_ .f32 0x00000000#32)) i = 1#1) : y i ≠ 0 := by
  have h' : Ideal.cmp .une (y i) (Ideal.ofBits .f32 0x00000000#32) = 1#1 := h
  rw [Ideal.ofBits_zero_f32] at h'
  simpa only [Ideal.cmp, ofBool_eq_one', decide_eq_true_eq, ne_eq] using h'

/-- If "no row sum of `x1 + I` is zero" came out true, the row sum of `adj + I` at every row is not zero. -/
theorem rowsum_ne_zero (x1 : FVec Ideal S8x16x1024x1024 .f32)
    (e : Host.reduce IntOp.andi
          (cmpf .une
            (Host.reduceAdd (F := Ideal)
              (addf x1 (broadcastInDim S8x16x1024x1024 ![0, 1, 2, 3] bcast_S1x1x1024x1024_S8x16x1024x1024_0_1_2_3
                (broadcastInDim S1x1x1024x1024 ![2, 3] bcast_S1024x1024_S1x1x1024x1024_2_3 eyeArr)))
              (constant (F := Ideal) S_ .f32 0x00000000#32) reducesTo_S8x16x1024x1024_S8x16x1024_d3 h_S_)
            (broadcastInDim S8x16x1024 ![] bcast_S_S8x16x1024 (constant (F := Ideal) S_ .f32 0x00000000#32)))
          (constantI S_ 1 1#1) reducesTo_S8x16x1024_S_d0_1_2 h_S_ ix0 = 1#1)
    (b : Fin 8) (c : Fin 16) (v : Fin 1024) : rsR (adjAt x1 b c) v ≠ 0 := by
  have hi := Host.reduce_andi_all _ _ reducesTo_S8x16x1024_S_d0_1_2 h_S_ ix0 e (ix3 b c v)
  have hne := ne_zero_of_une bcast_S_S8x16x1024 _ (ix3 b c v) hi
  rw [rowsum_apply x1 eyeArr b c v] at hne
  simpa only [rsR, eyeArr_apply] using hne

/-! ## The precondition, decoded -/

/-- The precondition holds exactly as printed; so every entry of every argument is a real number, and no row sum of
    `adj + I` vanishes. -/
theorem pre_facts (x0 : FVec Ideal S8x32x1024x16 .f32) (x1 : FVec Ideal S8x16x1024x1024 .f32) (x2 : FVec Ideal S32x20 .f32)
    (x3 : FVec Ideal S20 .f32) (x4 : FVec Ideal S80x32 .f32) (x5 : FVec Ideal S32 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ (b : Fin 8) (c : Fin 16) (v : Fin 1024), rsR (adjAt x1 b c) v ≠ 0) := by
  have h0 := congrFun h ix0
  dsimp only [fn, fn_part1, fn_part2] at h0
  simp only [andi, IntOp.andi_eq_one] at h0
  obtain ⟨⟨⟨⟨⟨⟨e0, e1⟩, e2⟩, e3⟩, e4⟩, e5⟩, e6⟩ := h0
  exact ⟨all_finite _ _ _ x0 e0, all_finite _ _ _ x1 e1, all_finite _ _ _ x2 e2, all_finite _ _ _ x3 e3,
    all_finite _ _ _ x4 e4, all_finite _ _ _ x5 e5, rowsum_ne_zero x1 e6⟩

end Cert.Pre_finite_inputs.Decode

end
-- ==== Proof.lean ====
/-
  A mix-hop graph propagation layer: the kernel against its jnp reference, on the extended reals.

  For every batch element b and channel c, with a = adj[b, c] (1024 × 1024), xt = x[b, :, :, c]ᵀ (1024 × 32),
  h₀ = xt · W_start + b_start, three hops h ↦ 0.05 · h₀ + 0.95 · (Â · h) with Â = (a + I) / rowsum (a + I), and the result
  [h₀ | h₁ | h₂ | h₃] · W_end + b_end (0.05 and 0.95 the same f32 words in both programs).

  The reference forms a + I, divides every entry by its row sum, and multiplies the concatenated hops by the whole end
  weight.  The kernel never forms a + I: the identity contributes h itself to a · h and 1 to the row sum of a, it divides
  once per row after the product, and it applies the end weight hop by hop to its four 20-row segments.  On the extended
  reals the two agree when every entry is a real number and no row sum of a + I is zero — the precondition: the
  distributive law and the cancellation behind "Â · h = (a · h + h) / rowsum" fail at the infinities, and a quotient by a
  zero row sum is an infinity or a junk value in both programs, differently placed.

  Modules: `Spec` states both spellings on plain index types and the result array as one function `G` of the six
  arguments; `Law` proves the two spellings equal under the precondition; `KernChan` reads the kernel's two stored
  pieces at an index; `Blocks` carries the pieces to the whole result array; `RefRead` and `RefG` read the reference's
  result at an index and identify it with `G`; `PreDecode` extracts from the precondition that every entry is real
  and every row sum of a + I nonzero.  Here the five claims are assembled.
-/
import proofs.«172304_j27212912787591_2_alg».proof.Defs
import proofs.«172304_j27212912787591_2_alg».proof.Proof.Gen.Kernel
import proofs.«172304_j27212912787591_2_alg».proof.Proof.Gen.Kernel.Skeleton
import proofs.«172304_j27212912787591_2_alg».proof.Proof.Gen.Kernel.Launch
import proofs.«172304_j27212912787591_2_alg».proof.Proof.Gen.Kernel.Points
import proofs.«172304_j27212912787591_2_alg».proof.Proof.Gen.Kernel.Frame
import proofs.«172304_j27212912787591_2_alg».proof.Proof.Gen.KernelIdeal
import proofs.«172304_j27212912787591_2_alg».proof.Proof.Gen.KernelIdeal.Skeleton
import proofs.«172304_j27212912787591_2_alg».proof.Proof.Gen.KernelIdeal.Launch
import proofs.«172304_j27212912787591_2_alg».proof.Proof.Gen.KernelIdeal.Points
import proofs.«172304_j27212912787591_2_alg».proof.Proof.Gen.KernelIdeal.Frame
import proofs.«172304_j27212912787591_2_alg».proof.Proof.Gen.ReferenceIdeal
import proofs.«172304_j27212912787591_2_alg».proof.Proof.Gen.Pre_finite_inputs
import proofs.«172304_j27212912787591_2_alg».proof.Proof.Gen.KernelIdeal.Value
import proofs.«172304_j27212912787591_2_alg».proof.Proof.Gen.ReferenceIdeal.Run
import proofs.«172304_j27212912787591_2_alg».proof.Proof.Gen.ReferenceIdeal.Read
import proofs.«172304_j27212912787591_2_alg».proof.Proof.Blocks
import proofs.«172304_j27212912787591_2_alg».proof.Proof.RefG
import proofs.«172304_j27212912787591_2_alg».proof.Proof.PreDecode
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: it runs, and writes none of its arguments. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten to read it on the extended reals. -/
theorem preserves : Cert.preserves_Kernel_KernelIdeal := trivial

/-- Both programs end with the result array at `Cert.Mix.G` of the argument arrays: the kernel block by block
    (`Blocks.run`), the reference by its composed term read at every index (`ref_eq_G`), under what the precondition
    gives (`pre_facts`): every entry real, no row sum of adj + I zero. -/
theorem algebraic : Cert.algebraic_KernelIdeal_ReferenceIdeal := by
  intro m ρ m' ρ' hpre hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq]
  obtain ⟨a0, a1, a2, a3, a4, a5⟩ := hagree c
  rw [a0, a1, a2, a3, a4, a5]
  obtain ⟨h0, h1, h2, h3, -, -, hrs⟩ := Cert.Pre_finite_inputs.Decode.pre_facts _ _ _ _ _ _ (hpre c)
  exact Cert.ReferenceIdeal.RefValue.ref_eq_G _ _ _ _ _ _ h0 h1 h2 h3 hrs

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
